-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21_1)) (v1 : (c : Dev Cert.KernelIdeal.nD) → Buf (Elt Ideal) ((c.tc : Thread Cert.KernelIdeal.nD Cert.KernelIdeal.τ).loc Cert.KernelIdeal.main_v21_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_1) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S512x512 .f32) (main_arg7 : FVec F S512x512 .f32) (main_arg8 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg7
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8192x512 .f32) (main_arg1 : IVec S8192x8192 1) (main_arg2 : IVec S8192x8192 1) (main_arg3 : FVec F S512x512 .f32) (main_arg4 : FVec F S512x512 .f32) (main_arg5 : FVec F S512x512 .f32) (main_arg6 : FVec F S512x512 .f32) (main_arg7 : FVec F S512x512 .f32) (main_arg8 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩
abbrev S512x8192 : Shape := ⟨2, ![512, 8192]⟩
abbrev S1x512 : Shape := ⟨2, ![1, 512]⟩
abbrev S128x512 : Shape := ⟨2, ![128, 512]⟩
abbrev S128x8192 : Shape := ⟨2, ![128, 8192]⟩
abbrev S128x1 : Shape := ⟨2, ![128, 1]⟩
abbrev S512x1024 : Shape := ⟨2, ![512, 1024]⟩
abbrev S1024x512 : Shape := ⟨2, ![1024, 512]⟩
abbrev S128x1024 : Shape := ⟨2, ![128, 1024]⟩
abbrev S128 : Shape := ⟨1, ![128]⟩

abbrev nBuf : Space → Nat
  | .hbm => 34
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x8192, .i1⟩
  | .hbm, ⟨2, _⟩ => ⟨S8192x8192, .i1⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .bf16⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .bf16⟩
  | .hbm, ⟨19, _⟩ => ⟨S8192x512, .f32⟩
  | .hbm, ⟨20, _⟩ => ⟨S8192x512, .bf16⟩
  | .hbm, ⟨21, _⟩ => ⟨S512x8192, .bf16⟩
  | .hbm, ⟨22, _⟩ => ⟨S8192x512, .f32⟩
  | .hbm, ⟨23, _⟩ => ⟨S8192x512, .bf16⟩
  | .hbm, ⟨24, _⟩ => ⟨S512x8192, .bf16⟩
  | .hbm, ⟨25, _⟩ => ⟨S8192x512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S8192x512, .bf16⟩
  | .hbm, ⟨30, _⟩ => ⟨S8192x8192, .i32⟩
  | .hbm, ⟨31, _⟩ => ⟨S8192x8192, .i32⟩
  | .hbm, ⟨32, _⟩ => ⟨S8192x8192, .f32⟩
  | .hbm, ⟨33, _⟩ => ⟨S8192x512, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S512x8192, .bf16⟩
  | .local _ .vmem, ⟨5, _⟩ => ⟨S512x8192, .bf16⟩
  | .local _ .vmem, ⟨6, _⟩ => ⟨S8192x512, .bf16⟩
  | .local _ .vmem, ⟨7, _⟩ => ⟨S128x8192, .i32⟩
  | .local _ .vmem, ⟨8, _⟩ => ⟨S128x8192, .i32⟩
  | .local _ .vmem, ⟨9, _⟩ => ⟨S128x8192, .i32⟩
  | .local _ .vmem, ⟨10, _⟩ => ⟨S128x8192, .i32⟩
  | .local _ .vmem, ⟨11, _⟩ => ⟨S128x8192, .f32⟩
  | .local _ .vmem, ⟨12, _⟩ => ⟨S128x8192, .f32⟩
  | .local _ .vmem, ⟨13, _⟩ => ⟨S128x512, .f32⟩
  | .local _ .vmem, ⟨14, _⟩ => ⟨S128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v18 : BitVec 32 := Scalar.muli arg10 c1024_i32
  v18
def k0_off1 (k0_t1 : Fin k0_t1_loop.trips) : Fin 2 → Nat :=
  let c0_12 : Index := 0#32
  let c0_i32 : BitVec 32 := 0#32
  let c1_i32 : BitVec 32 := 1#32
  let arg10 : BitVec 32 := Scf.iv c0_i32 c1_i32 k0_t1
  let c1024_i32 : BitVec 32 := 1024#32
  let v18 : BitVec 32 := Scalar.muli arg10 c1024_i32
  let v19 : BitVec 32 := v18
  let v20 : Index := Scalar.indexCast v19
  ![0, v20.toNat]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v18 : BitVec 32 := Scalar.muli arg10 c1024_i32
  let v19 : BitVec 32 := v18
  let v26 : Index := Scalar.indexCast v19
  let c0_14 : Index := 0#32
  ![v26.toNat, 0]
def k0_off3 (k0_t1 : Fin k0_t1_loop.trips) : Fin 2 → Nat :=
  let c0_15 : Index := 0#32
  let c0_i32 : BitVec 32 := 0#32
  let c1_i32 : BitVec 32 := 1#32
  let arg10 : BitVec 32 := Scf.iv c0_i32 c1_i32 k0_t1
  let c1024_i32 : BitVec 32 := 1024#32
  let v18 : BitVec 32 := Scalar.muli arg10 c1024_i32
  let v19 : BitVec 32 := v18
  let v29 : Index := Scalar.indexCast v19
  ![0, v29.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x8192 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8192 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S8192x512 : S_.BroadcastsInDim S8192x512 (![] : Fin 0 → Fin S8192x512.rank)
  bitsLt_bf16_f32 : FTy.bits .bf16 < FTy.bits .f32
  transposes_S8192x512_S512x8192_1_0 : S8192x512.Transposes [1, 0] S512x8192
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  natLt_1_32 : 1 < 32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  h_S512x1024 : 0 < S512x1024.numel
  shapeCasts_S512x1024_S512x1024 : S512x1024.ShapeCasts S512x1024
  h_S1024x512 : 0 < S1024x512.numel
  shapeCasts_S1024x512_S1024x512 : S1024x512.ShapeCasts S1024x512
  h_S128x1024 : 0 < S128x1024.numel
  reduces_S128x1024_S128 : S128x1024.Reduces [1] S128
  shapeCasts_S128_S128x1 : S128.ShapeCasts S128x1
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  broadcasts_S128x1_S128x8192 : S128x1.Broadcasts S128x8192
  broadcasts_S128x1_S128x512 : S128x1.Broadcasts S128x512
  dot_S8192x512_S512x512_S8192x512_1_0_0_1_n_n_wf : DotDims.WF S8192x512 S512x512 S8192x512 [1] [0] [0] [1] [] []
  dot_S128x512_S512x1024_S128x1024_1_0_0_1_n_n_wf : DotDims.WF S128x512 S512x1024 S128x1024 [1] [0] [0] [1] [] []
  dot_S128x1024_S1024x512_S128x512_1_0_0_1_n_n_wf : DotDims.WF S128x1024 S1024x512 S128x512 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S512x1024.size a ≤ S512x8192.size a
  k0_off2_inb : ∀ k0_t1 : Fin k0_t1_loop.trips, ∀ a, (k0_off2 k0_t1) a + S1024x512.size a ≤ S8192x512.size a
  k0_off3_inb : ∀ k0_t1 : Fin k0_t1_loop.trips, ∀ a, (k0_off3 k0_t1) a + S128x1024.size a ≤ S128x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .bf16 = 32 ∨ (Rect.block (s := S8192x512) S128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S8192x512.size a
  hwx0_1 : ∀ i : grid0.Coords, EltTy.bits .bf16 = 32 ∨ (Rect.block (s := S8192x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x8192.size a ≤ S512x8192.size a
  hwx0_2 : ∀ i : grid0.Coords, EltTy.bits .bf16 = 32 ∨ (Rect.block (s := S512x8192) S512x8192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x8192.size a ≤ S512x8192.size a
  hwx0_3 : ∀ i : grid0.Coords, EltTy.bits .bf16 = 32 ∨ (Rect.block (s := S512x8192) S512x8192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x512.size a ≤ S8192x512.size a
  hwx0_4 : ∀ i : grid0.Coords, EltTy.bits .bf16 = 32 ∨ (Rect.block (s := S8192x512) S8192x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x8192.size a ≤ S8192x8192.size a
  hwx0_5 : ∀ i : grid0.Coords, EltTy.bits .i32 = 32 ∨ (Rect.block (s := S8192x8192) S128x8192.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x8192.size a ≤ S8192x8192.size a
  hwx0_6 : ∀ i : grid0.Coords, EltTy.bits .i32 = 32 ∨ (Rect.block (s := S8192x8192) S128x8192.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x8192.size a ≤ S8192x8192.size a
  hwx0_7 : ∀ i : grid0.Coords, EltTy.bits .f32 = 32 ∨ (Rect.block (s := S8192x8192) S128x8192.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S8192x512.size a
  hwx0_8 : ∀ i : grid0.Coords, EltTy.bits .f32 = 32 ∨ (Rect.block (s := S8192x512) S128x512.size (cc0_transform_8 i) (hinb0_8 i)).WholeWords (EltTy.packing .f32)

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf

abbrev win0_0 : Pipeline.Window sig grid0 :=
  Pipeline.Window.ofSpec (Memref.whole main_v3) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S8192x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S128x8192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20) S128x8192.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_0) S128x8192.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_1) S128x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i1⟩
  | .hbm, ⟨2, _⟩ => ⟨S8192x8192, .i1⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S8192x512, .f32⟩
  | .hbm, ⟨10, _⟩ => ⟨S8192x512, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x512, .f32⟩
  | .hbm, ⟨19, _⟩ => ⟨S8192x512, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x512, .f32⟩
  | .hbm, ⟨42, _⟩ => ⟨S1x512, .f32⟩
  | .hbm, ⟨43, _⟩ => ⟨S8192x512, .f32⟩
  | .hbm, ⟨44, _⟩ => ⟨S8192x512, .f32⟩
  | .hbm, ⟨45, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x512_S8192x512_1_0_0_1_n_n_wf : DotDims.WF S8192x512 S512x512 S8192x512 [1] [0] [0] [1] [] []
  dot_S8192x512_S8192x512_S8192x8192_1_1_0_0_n_n_wf : DotDims.WF S8192x512 S8192x512 S8192x8192 [1] [1] [0] [0] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.AttnSpec.lean ====
/-
  Two-branch masked attention over 8192 positions with 512 features, on the extended reals, as functions of the
  argument arrays: the input rows `x`, two position-by-position masks, five weight matrices and a bias.

  A position's query, key and value rows are linear projections of its input row. A branch's score of query `n`
  against key `m` is the inner product of the projected rows times a fixed scale, replaced by a fixed large negative
  number where the branch's mask is set. The weight of key `m` for query `n` is the exponential of the first branch's
  score plus one half of the exponential of the second's. The attention matrix is each row of weights divided by its
  sum, and the context is the attention matrix applied to the value rows.

  Two arrangements of the same quantity are written out. In the first (`attn`, `cntx`) every weight is first divided by
  3/2, the rows are normalised by a quotient, and the scale multiplies the finished inner product. In the second
  (`kattn`, `kcntx`) the scale multiplies the query row before the inner product, the weights are not divided by 3/2,
  the row sum is gathered in eight runs of 1024 keys, and a row is normalised by a product with the reciprocal of its
  sum — for the context, after the weighted sum of the value rows rather than before it.
-/
import Idealize.ShloMosaic.PureOps.Ideal
import Idealize.ShloMosaic.Lib.ValueIdx

noncomputable section

namespace Cert.AttnSpec

open Idealize.ShloMosaic Idealize.ShloMosaic.ValueIdx
open scoped BigOperators

/-- The shapes of the argument arrays. -/
abbrev SRows : Shape := ⟨2, ![8192, 512]⟩
abbrev SPairs : Shape := ⟨2, ![8192, 8192]⟩
abbrev SWeights : Shape := ⟨2, ![512, 512]⟩
abbrev SBias : Shape := ⟨1, ![512]⟩

/-- The constants, as the f32 words both programs spell: the scale 1/√512 rounded to f32, the fill -10⁹, one half,
    three halves, one and zero. -/
abbrev scaleW : EReal := Ideal.ofBits .f32 0x3D3504F3#32
abbrev fillW : EReal := Ideal.ofBits .f32 0xCE6E6B28#32
abbrev halfW : EReal := Ideal.ofBits .f32 0x3F000000#32
abbrev threeHalvesW : EReal := Ideal.ofBits .f32 0x3FC00000#32
abbrev oneW : EReal := Ideal.ofBits .f32 0x3F800000#32
abbrev zeroW : EReal := Ideal.ofBits .f32 0x00000000#32

variable (x : SRows.Idx → EReal) (mr mf : SPairs.Idx → BitVec 1)
  (Wqr Wkr Wqf Wkf Wv : SWeights.Idx → EReal) (bv : SBias.Idx → EReal)

/-- Feature `h` of the projection of input row `n` by the matrix `W`. -/
def proj (x : SRows.Idx → EReal) (W : SWeights.Idx → EReal) (n : Fin 8192) (h : Fin 512) : EReal :=
  ∑ d : Fin 512, x (ix2 n d) * W (ix2 d h)

/-- Feature `d` of the value row of position `m`: the projection plus the bias. -/
def value (x : SRows.Idx → EReal) (Wv : SWeights.Idx → EReal) (bv : SBias.Idx → EReal) (m : Fin 8192) (d : Fin 512) : EReal :=
  proj x Wv m d + bv (ix1 d)

/-! ## The first arrangement -/

/-- A branch's score of query `n` against key `m`: the inner product of the projected rows, then the scale, then the
    fill where the mask is set. -/
def score (mask : SPairs.Idx → BitVec 1) (x : SRows.Idx → EReal) (Wq Wk : SWeights.Idx → EReal) (n m : Fin 8192) : EReal :=
  Scalar.select (mask (ix2 n m)) fillW ((∑ h : Fin 512, proj x Wq n h * proj x Wk m h) * scaleW)

/-- The weight of key `m` for query `n`. -/
def weight (n m : Fin 8192) : EReal :=
  Ideal.exp (score mr x Wqr Wkr n m) + halfW * Ideal.exp (score mf x Wqf Wkf n m)

/-- The attention of query `n` to key `m`: the weight over 3/2, over the sum of the row's weights over 3/2. -/
def attn (n m : Fin 8192) : EReal :=
  Ideal.div (Ideal.div (weight x mr mf Wqr Wkr Wqf Wkf n m) threeHalvesW)
    (zeroW + ∑ m' : Fin 8192, Ideal.div (weight x mr mf Wqr Wkr Wqf Wkf n m') threeHalvesW)

/-- Feature `d` of the context of query `n`. -/
def cntx (n : Fin 8192) (d : Fin 512) : EReal :=
  ∑ m : Fin 8192, attn x mr mf Wqr Wkr Wqf Wkf n m * value x Wv bv m d

/-! ## The second arrangement -/

/-- A branch's score with the query row scaled before the inner product. -/
def kscore (mask : SPairs.Idx → BitVec 1) (x : SRows.Idx → EReal) (Wq Wk : SWeights.Idx → EReal) (n m : Fin 8192) : EReal :=
  Scalar.select (mask (ix2 n m)) fillW (∑ h : Fin 512, (proj x Wq n h * scaleW) * proj x Wk m h)

/-- The weight of key `m` for query `n`, from the scores so arranged. -/
def kweight (n m : Fin 8192) : EReal :=
  Ideal.exp (kscore mr x Wqr Wkr n m) + halfW * Ideal.exp (kscore mf x Wqf Wkf n m)

/-- The weight at a natural-number key position (zero past the last key). -/
def kweightN (n : Fin 8192) (k : ℕ) : EReal :=
  if h : k < 8192 then kweight x mr mf Wqr Wkr Wqf Wkf n ⟨k, h⟩ else 0

/-- The weight times feature `d` of the value row, at a natural-number key position (zero past the last key). -/
def ktermN (n : Fin 8192) (d : Fin 512) (k : ℕ) : EReal :=
  if h : k < 8192 then kweight x mr mf Wqr Wkr Wqf Wkf n ⟨k, h⟩ * value x Wv bv ⟨k, h⟩ d else 0

/-- The sum of row `n`'s weights over the first `j` runs of 1024 keys, each run's sum added to the sum so far. -/
def kden (n : Fin 8192) (j : ℕ) : EReal :=
  zeroW + ∑ s ∈ Finset.range j, ∑ l : Fin 1024, kweightN x mr mf Wqr Wkr Wqf Wkf n (1024 * s + l.val)

/-- The weighted sum of feature `d` of the value rows over the first `j` runs of 1024 keys. -/
def kacc (n : Fin 8192) (d : Fin 512) (j : ℕ) : EReal :=
  zeroW + ∑ s ∈ Finset.range j, ∑ l : Fin 1024, ktermN x mr mf Wqr Wkr Wqf Wkf Wv bv n d (1024 * s + l.val)

/-- The attention of query `n` to key `m`: the weight times the reciprocal of the row's sum over all eight runs. -/
def kattn (n m : Fin 8192) : EReal :=
  kweight x mr mf Wqr Wkr Wqf Wkf n m * Ideal.div oneW (kden x mr mf Wqr Wkr Wqf Wkf n 8)

/-- Feature `d` of the context of query `n`: the weighted sum of the value rows times the same reciprocal. -/
def kcntx (n : Fin 8192) (d : Fin 512) : EReal :=
  kacc x mr mf Wqr Wkr Wqf Wkf Wv bv n d 8 * Ideal.div oneW (kden x mr mf Wqr Wkr Wqf Wkf n 8)

end Cert.AttnSpec

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«171019_j49134425866850_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibRowReduce.lean ====
/-
  Reductions along the rows of an [a, b] array, read at a row, on the extended reals.

  A lane sum from the zero word is the sum of the row's entries; a lane maximum from the -∞ word is their supremum;
  and a vector [a] kept as a column [a, 1] and spread over b columns reads, at (p, q), the vector at p.  The source
  index over row p with column k inserted is (p, k).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import proofs.«171019_j49134425866850_2_alg».proof.Proof.LibKeepdims
import proofs.«171019_j49134425866850_2_alg».proof.Proof.LibExtremeReduce

noncomputable section

namespace Cert.LibRowReduce

open Idealize.ShloMosaic Idealize.ShloMosaic.ValueIdx

variable {a b : Nat}

/-- Over row p of an [a, b] array, the index with column k inserted is (p, k). -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum along the rows, from the zero word, at row p: the sum of the row. -/
theorem rowSum_apply (src : FVec Ideal ⟨2, ![a, b]⟩ .f32) (h : (⟨2, ![a, b]⟩ : Shape).Reduces [1] ⟨1, ![a]⟩) (p : Fin a) :
    multiReduction .add [1] ⟨1, ![a]⟩ src 0x00000000#32 h (.inl rfl) rfl (ix1 p) = ∑ q : Fin b, src (ix2 p q) :=
  (Ideal.multiReduction_add_single src 0x00000000#32 h (.inl rfl) rfl (ix1 p)).trans
    (Finset.sum_congr rfl fun k _ => congrArg src (lift_row h p k))

/-- A lane maximum along the rows, from the -∞ word, at row p: the supremum of the row. -/
theorem rowMax_apply (src : FVec Ideal ⟨2, ![a, b]⟩ .f32) (h : (⟨2, ![a, b]⟩ : Shape).Reduces [1] ⟨1, ![a]⟩) (p : Fin a) :
    multiReduction .maximumf [1] ⟨1, ![a]⟩ src 0xFF800000#32 h (.inl rfl) rfl (ix1 p) = ⨆ q : Fin b, src (ix2 p q) :=
  (ExtremeReduce.multiReduction_max_single src h (.inl rfl) rfl (ix1 p)).trans
    (iSup_congr fun k => congrArg src (lift_row h p k))

/-- A vector [a] kept as a column [a, 1] and spread over b columns reads, at (p, q), the vector at p. -/
theorem column_apply {α : Type} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (LibKeepdims.broadcastTo_a1_ab_apply _ h2 p q).trans (LibKeepdims.shapeCast_a_a1_apply v h1 p 0)

end Cert.LibRowReduce

end
-- ==== Proof.Payloads.lean ====
/-
  The arithmetic of one query block, read at an index on the extended reals.

  A block holds 128 query rows. Against a run of 1024 keys its weight at (row r, lane l) is the exponential of the first
  branch's masked inner product plus one half of the exponential of the second's; the inner products are taken over the
  512 features of the (already scaled) query row and the key column, and a branch's mask is set where its integer word
  is not zero. One trip of the key loop adds the run's weights along the lanes to the row sums carried so far, and adds
  the weights applied to the run's 1024 value rows to the weighted sums carried so far. After the loop every stored
  weight, and every weighted sum, is multiplied by the reciprocal of its row's sum.
-/
import proofs.«171019_j49134425866850_2_alg».proof.Proof.Gen.KernelIdeal.Skeleton
import proofs.«171019_j49134425866850_2_alg».proof.Proof.AttnSpec
import proofs.«171019_j49134425866850_2_alg».proof.Proof.LibInnerProducts
import proofs.«171019_j49134425866850_2_alg».proof.Proof.LibRowReduce
import proofs.«171019_j49134425866850_2_alg».proof.Proof.LibKeepdims
import Idealize.ShloMosaic.Lib.ValueIdx
import Idealize.ShloMosaic.Lib.Pipeline.Value
import Idealize.ShloMosaic.Lib.ValueLayout

noncomputable section

namespace Cert.Payloads

open Cert.KernelIdeal Cert.KernelIdeal.Gen Cert.AttnSpec
open Idealize.ShloMosaic Idealize.ShloMosaic.ValueIdx
open scoped BigOperators

/-- The weight at (row r, lane l) of a run of 1024 keys, from the two query blocks, the two key runs and the two mask runs. -/
def runWeight (q qf : S128x512.Idx → EReal) (k kf : S512x1024.Idx → EReal) (mk mkf : S128x1024.Idx → BitVec 32)
    (r : Fin 128) (l : Fin 1024) : EReal :=
  Ideal.exp (Scalar.select (IntOp.cmpi .ne (mk (ix2 r l)) 0#32) fillW (∑ h : Fin 512, q (ix2 r h) * k (ix2 h l)))
    + halfW * Ideal.exp (Scalar.select (IntOp.cmpi .ne (mkf (ix2 r l)) 0#32) fillW (∑ h : Fin 512, qf (ix2 r h) * kf (ix2 h l)))

/-- The stored weights of a trip. -/
theorem pay3_apply (v0 v2 : Vec Ideal S128x512 .bf16) (v21 v24 : Vec Ideal S512x1024 .bf16) (v30 v33 : Vec Ideal S128x1024 .i32)
    (r : Fin 128) (l : Fin 1024) :
    k0_pay3 (F := Ideal) v0 v2 v21 v24 v30 v33 (ix2 r l) = runWeight v0 v2 v21 v24 v30 v33 r l := by
  have e1 := InnerProducts.matmul_zero_apply (φ₁ := .bf16) (φ₂ := .bf16) dot_S128x512_S512x1024_S128x1024_1_0_0_1_n_n rfl none
    (shapeCast S128x512 v0 shapeCasts_S128x512_S128x512) (shapeCast S512x1024 v21 shapeCasts_S512x1024_S512x1024) r l
  have e2 := InnerProducts.matmul_zero_apply (φ₁ := .bf16) (φ₂ := .bf16) dot_S128x512_S512x1024_S128x1024_1_0_0_1_n_n rfl none
    (shapeCast S128x512 v2 shapeCasts_S128x512_S128x512) (shapeCast S512x1024 v24 shapeCasts_S512x1024_S512x1024) r l
  unfold k0_pay3 runWeight
  show Ideal.exp (Scalar.select _ _ (matmul (F := Ideal) _ none _ _ _ (ix2 r l)))
      + _ * Ideal.exp (Scalar.select _ _ (matmul (F := Ideal) _ none _ _ _ (ix2 r l))) = _
  rw [e1, e2]
  simp only [shapeCast_self]
  rfl

/-- A trip's row sums: the sums carried so far plus the run's weights added along the lanes. -/
theorem pay4_apply (v0 v2 : Vec Ideal S128x512 .bf16) (a : FVec Ideal S128x1 .f32) (v21 v24 : Vec Ideal S512x1024 .bf16)
    (v30 v33 : Vec Ideal S128x1024 .i32) (r : Fin 128) (u : Fin 1) :
    k0_pay4 (F := Ideal) v0 v2 a v21 v24 v30 v33 (ix2 r u) = a (ix2 r u) + ∑ l : Fin 1024, runWeight v0 v2 v21 v24 v30 v33 r l := by
  unfold k0_pay4
  show a (ix2 r u) + shapeCast S128x1 (multiReduction .add [1] S128 (k0_pay3 (F := Ideal) v0 v2 v21 v24 v30 v33) 0x00000000#32 reduces_S128x1024_S128 (.inl rfl) rfl) shapeCasts_S128_S128x1 (ix2 r u) = _
  rw [LibKeepdims.shapeCast_a_a1_apply, LibRowReduce.rowSum_apply]
  exact congrArg _ (Finset.sum_congr rfl fun l _ => pay3_apply v0 v2 v21 v24 v30 v33 r l)

/-- A trip's weighted sums: those carried so far plus the run's weights applied to the run's value rows. -/
theorem pay5_apply (v0 v2 : Vec Ideal S128x512 .bf16) (b : FVec Ideal S128x512 .f32) (v21 v24 : Vec Ideal S512x1024 .bf16)
    (v27 : Vec Ideal S1024x512 .bf16) (v30 v33 : Vec Ideal S128x1024 .i32) (r : Fin 128) (d : Fin 512) :
    k0_pay5 (F := Ideal) v0 v2 b v21 v24 v27 v30 v33 (ix2 r d)
      = b (ix2 r d) + ∑ l : Fin 1024, runWeight v0 v2 v21 v24 v30 v33 r l * v27 (ix2 l d) := by
  have e := InnerProducts.matmul_zero_apply (φ₁ := .bf16) (φ₂ := .bf16) dot_S128x1024_S1024x512_S128x512_1_0_0_1_n_n rfl none
    (truncf .bf16 (k0_pay3 (F := Ideal) v0 v2 v21 v24 v30 v33) bitsLt_bf16_f32) (shapeCast S1024x512 v27 shapeCasts_S1024x512_S1024x512) r d
  unfold k0_pay5
  show b (ix2 r d) + matmul (F := Ideal) _ none _ _ _ (ix2 r d) = _
  rw [e]
  simp only [shapeCast_self]
  exact congrArg _ (Finset.sum_congr rfl fun l _ => congrArg (· * v27 (ix2 l d)) (pay3_apply v0 v2 v21 v24 v30 v33 r l))

/-- The reciprocal of a row's sum. -/
theorem pay6_apply (a : FVec Ideal S128x1 .f32) (r : Fin 128) (u : Fin 1) :
    k0_pay6 (F := Ideal) a (ix2 r u) = Ideal.div oneW (a (ix2 r u)) := rfl

/-- A stored weight times the reciprocal of its row's sum. -/
theorem pay7_apply (a : FVec Ideal S128x1 .f32) (w : Vec Ideal S128x8192 .f32) (r : Fin 128) (j : Fin 8192) :
    k0_pay7 (F := Ideal) a w (ix2 r j) = w (ix2 r j) * Ideal.div oneW (a (ix2 r (0 : Fin 1))) := by
  unfold k0_pay7
  show shapeCast S128x8192 w shapeCasts_S128x8192_S128x8192 (ix2 r j) * broadcastTo S128x8192 (k0_pay6 (F := Ideal) a) broadcasts_S128x1_S128x8192 (ix2 r j) = _
  rw [shapeCast_self, LibKeepdims.broadcastTo_a1_ab_apply, pay6_apply]

/-- A weighted sum times the reciprocal of its row's sum. -/
theorem pay8_apply (a : FVec Ideal S128x1 .f32) (b : FVec Ideal S128x512 .f32) (r : Fin 128) (d : Fin 512) :
    k0_pay8 (F := Ideal) a b (ix2 r d) = b (ix2 r d) * Ideal.div oneW (a (ix2 r (0 : Fin 1))) := by
  unfold k0_pay8
  show b (ix2 r d) * broadcastTo S128x512 (k0_pay6 (F := Ideal) a) broadcasts_S128x1_S128x512 (ix2 r d) = _
  rw [LibKeepdims.broadcastTo_a1_ab_apply, pay6_apply]

/-- The loop starts from zero row sums and zero weighted sums. -/
theorem pay1_apply (i : S128x1.Idx) : k0_pay1 (F := Ideal) i = zeroW := rfl
theorem pay2_apply (i : S128x512.Idx) : k0_pay2 (F := Ideal) i = zeroW := rfl

end Cert.Payloads

end
-- ==== Proof.LoopValue.lean ====
/-
  What one query block's two output blocks hold after the kernel's body, on the extended reals.

  The body's key loop makes eight trips. Trip k loads the k-th run of 1024 key columns, value rows and mask columns,
  stores the run's weights into columns 1024·k … 1024·k + 1023 of the attention block, and carries the row sums and
  the weighted sums of the value rows. By induction over the trips the carried values are the partial sums over the
  first k runs, and every stored piece is a block of one function of the attention block's index: the weight of that
  query row for that key. After the loop the whole attention block is read back — the eight pieces tile it, so what is
  read is that one function — and multiplied, row by row, by the reciprocal of the row's sum; the weighted sums are
  multiplied by the same reciprocal. When the staged blocks hold the scaled projected queries of rows g(r), the
  projected keys (transposed), the value rows and the masks widened to words, these are the attention `kattn` and the
  context `kcntx` of AttnSpec at row g(r).
-/
import proofs.«171019_j49134425866850_2_alg».proof.Proof.KernelIdealP.Frame
import proofs.«171019_j49134425866850_2_alg».proof.Proof.Payloads
import proofs.«171019_j49134425866850_2_alg».proof.Proof.AttnSpec
import Idealize.ShloMosaic.Lib.Pipeline.Value
import Idealize.ShloMosaic.Lib.Pipeline.FrameBody
import Idealize.ShloMosaic.Lib.ValueIdx

set_option maxRecDepth 16384

noncomputable section

namespace Cert.LoopValue

open Cert.KernelIdeal Cert.KernelIdeal.Gen Cert.KernelIdeal.GenP Cert.AttnSpec Cert.Payloads
open Idealize.ShloMosaic Idealize.ShloMosaic.ValueIdx Idealize.ShloMosaic.TcCoe Idealize.SL.Sem
open scoped BigOperators

/-- A one-bit mask widened to a word is set exactly where the word is not zero. -/
theorem cmpi_ne_setWidth (b : BitVec 1) : IntOp.cmpi .ne (b.setWidth 32) (0#32) = b := by
  revert b; decide

/-- The loop makes eight trips. -/
theorem trips_eq : k0_t1_loop.trips = 8 := by decide

variable (A0 : SRows.Idx → EReal) (A1 A2 : SPairs.Idx → BitVec 1) (A3 A4 A5 A6 A7 : SWeights.Idx → EReal) (A8 : SBias.Idx → EReal)
variable (g : Fin 128 → Fin 8192)
variable (x0 x1 : Vec Ideal S128x512 .bf16) (x2 x3 : Vec Ideal S512x8192 .bf16) (x4 : Vec Ideal S8192x512 .bf16)
  (x5 x6 : Vec Ideal S128x8192 .i32)

/-- What the staged blocks of a query block hold, in the argument arrays: local row `r` is the array's row `g r`. -/
structure Staged : Prop where
  q : ∀ (r : Fin 128) (h : Fin 512), (x0 (ix2 r h) : EReal) = proj A0 A3 (g r) h * scaleW
  qf : ∀ (r : Fin 128) (h : Fin 512), (x1 (ix2 r h) : EReal) = proj A0 A5 (g r) h * scaleW
  k : ∀ (h : Fin 512) (j : Fin 8192), (x2 (ix2 h j) : EReal) = proj A0 A4 j h
  kf : ∀ (h : Fin 512) (j : Fin 8192), (x3 (ix2 h j) : EReal) = proj A0 A6 j h
  v : ∀ (j : Fin 8192) (d : Fin 512), (x4 (ix2 j d) : EReal) = value A0 A7 A8 j d
  mask : ∀ (r : Fin 128) (j : Fin 8192), (x5 (ix2 r j) : BitVec 32) = (A1 (ix2 (g r) j)).setWidth 32
  maskf : ∀ (r : Fin 128) (j : Fin 8192), (x6 (ix2 r j) : BitVec 32) = (A2 (ix2 (g r) j)).setWidth 32

variable (c : Dev nD) (i : grid0.Coords) (arg1 : Memref sig .tc .vmem S128x512 .bf16) (harg1 : arg1.IsWhole) (arg2 : Memref sig .tc .vmem S128x512 .bf16) (harg2 : arg2.IsWhole) (arg3 : Memref sig .tc .vmem S512x8192 .bf16) (harg3 : arg3.IsWhole) (arg4 : Memref sig .tc .vmem S512x8192 .bf16) (harg4 : arg4.IsWhole) (arg5 : Memref sig .tc .vmem S8192x512 .bf16) (harg5 : arg5.IsWhole) (arg6 : Memref sig .tc .vmem S128x8192 .i32) (harg6 : arg6.IsWhole) (arg7 : Memref sig .tc .vmem S128x8192 .i32) (harg7 : arg7.IsWhole) (arg8 : Memref sig .tc .vmem S128x8192 .f32) (harg8 : arg8.IsWhole) (arg9 : Memref sig .tc .vmem S128x512 .f32) (harg9 : arg9.IsWhole)

/-! ## A trip's loads, read at an index -/

/-- Trip `k`'s run of key columns: column `l` of the run is column `1024·k + l` of the block. -/
theorem keyRun_apply (arg : Memref sig .tc .vmem S512x8192 .bf16) (harg : arg.IsWhole) (x : Vec Ideal S512x8192 .bf16)
    (k : Fin k0_t1_loop.trips) (h : Fin 512) (l : Fin 1024) (hk : 1024 * k.val + l.val < 8192) :
    View.readAt (Elt Ideal) arg.view (Rect.unit (s := S512x8192) (k0_off1 k) S512x1024.size (k0_off1_inb k)).toLoadRect (harg.unread x) (ix2 h l)
      = x (ix2 h ⟨1024 * k.val + l.val, hk⟩) := by
  rw [View.readAt_eq_ld, harg.read_unread]
  refine congrArg x (funext fun a => Fin.ext ?_)
  have e := k0_off1_eq k
  match a with
  | ⟨0, _⟩ => show (k0_off1 k) 0 + 1 * h.val = h.val; rw [e]; simp
  | ⟨1, _⟩ => show (k0_off1 k) 1 + 1 * l.val = 1024 * k.val + l.val; rw [e]; simp

/-- Trip `k`'s run of value rows: row `l` of the run is row `1024·k + l` of the block. -/
theorem valueRun_apply (arg : Memref sig .tc .vmem S8192x512 .bf16) (harg : arg.IsWhole) (x : Vec Ideal S8192x512 .bf16)
    (k : Fin k0_t1_loop.trips) (l : Fin 1024) (d : Fin 512) (hk : 1024 * k.val + l.val < 8192) :
    View.readAt (Elt Ideal) arg.view (Rect.unit (s := S8192x512) (k0_off2 k) S1024x512.size (k0_off2_inb k)).toLoadRect (harg.unread x) (ix2 l d)
      = x (ix2 ⟨1024 * k.val + l.val, hk⟩ d) := by
  rw [View.readAt_eq_ld, harg.read_unread]
  refine congrArg x (funext fun a => Fin.ext ?_)
  have e := k0_off2_eq k
  match a with
  | ⟨0, _⟩ => show (k0_off2 k) 0 + 1 * l.val = 1024 * k.val + l.val; rw [e]; simp
  | ⟨1, _⟩ => show (k0_off2 k) 1 + 1 * d.val = d.val; rw [e]; simp

/-- Trip `k`'s run of mask columns. -/
theorem maskRun_apply (arg : Memref sig .tc .vmem S128x8192 .i32) (harg : arg.IsWhole) (x : Vec Ideal S128x8192 .i32)
    (k : Fin k0_t1_loop.trips) (r : Fin 128) (l : Fin 1024) (hk : 1024 * k.val + l.val < 8192) :
    View.readAt (Elt Ideal) arg.view (Rect.unit (s := S128x8192) (k0_off3 k) S128x1024.size (k0_off3_inb k)).toLoadRect (harg.unread x) (ix2 r l)
      = x (ix2 r ⟨1024 * k.val + l.val, hk⟩) := by
  rw [View.readAt_eq_ld, harg.read_unread]
  refine congrArg x (funext fun a => Fin.ext ?_)
  have e := k0_off3_eq k
  match a with
  | ⟨0, _⟩ => show (k0_off3 k) 0 + 1 * r.val = r.val; rw [e]; simp
  | ⟨1, _⟩ => show (k0_off3 k) 1 + 1 * l.val = 1024 * k.val + l.val; rw [e]; simp

/-! ## One trip, opened once -/

/-- What a trip stores: one piece, at the trip's 1024 columns of the attention block, of the weights of the trip's loads. -/
theorem tripL_eq (v0 v2 : Vec Ideal S128x512 .bf16) (X3 : BufTy.Contents (Elt Ideal) arg3.view.ty) (X4 : BufTy.Contents (Elt Ideal) arg4.view.ty)
    (X5 : BufTy.Contents (Elt Ideal) arg5.view.ty) (X6 : BufTy.Contents (Elt Ideal) arg6.view.ty) (X7 : BufTy.Contents (Elt Ideal) arg7.view.ty)
    (k : Fin k0_t1_loop.trips) (acc : FVec Ideal S128x1 .f32 × FVec Ideal S128x512 .f32) :
    tripL_k0_t1 (F := Ideal) Variants.none c none i arg1 harg1 arg2 harg2 arg3 harg3 arg4 harg4 arg5 harg5 arg6 harg6 arg7 harg7 arg8 harg8 arg9 harg9 v0 v2 X3 X4 X5 X6 X7 k acc
      = [⟨Rect.unit (s := S128x8192) (k0_off3 k) S128x1024.size (k0_off3_inb k),
          k0_pay3 (F := Ideal) v0 v2
            (View.readAt (Elt Ideal) arg3.view (Rect.unit (s := S512x8192) (k0_off1 k) S512x1024.size (k0_off1_inb k)).toLoadRect X3)
            (View.readAt (Elt Ideal) arg4.view (Rect.unit (s := S512x8192) (k0_off1 k) S512x1024.size (k0_off1_inb k)).toLoadRect X4)
            (View.readAt (Elt Ideal) arg6.view (Rect.unit (s := S128x8192) (k0_off3 k) S128x1024.size (k0_off3_inb k)).toLoadRect X6)
            (View.readAt (Elt Ideal) arg7.view (Rect.unit (s := S128x8192) (k0_off3 k) S128x1024.size (k0_off3_inb k)).toLoadRect X7)⟩] := by
  unfold tripL_k0_t1 trip_k0_t1
  rfl

/-- What a trip yields: the row sums and the weighted sums, each advanced by the trip's run. -/
theorem tripR_eq (v0 v2 : Vec Ideal S128x512 .bf16) (X3 : BufTy.Contents (Elt Ideal) arg3.view.ty) (X4 : BufTy.Contents (Elt Ideal) arg4.view.ty)
    (X5 : BufTy.Contents (Elt Ideal) arg5.view.ty) (X6 : BufTy.Contents (Elt Ideal) arg6.view.ty) (X7 : BufTy.Contents (Elt Ideal) arg7.view.ty)
    (k : Fin k0_t1_loop.trips) (acc : FVec Ideal S128x1 .f32 × FVec Ideal S128x512 .f32) :
    tripR_k0_t1 (F := Ideal) Variants.none c none i arg1 harg1 arg2 harg2 arg3 harg3 arg4 harg4 arg5 harg5 arg6 harg6 arg7 harg7 arg8 harg8 arg9 harg9 v0 v2 X3 X4 X5 X6 X7 k acc
      = (k0_pay4 (F := Ideal) v0 v2 acc.1
            (View.readAt (Elt Ideal) arg3.view (Rect.unit (s := S512x8192) (k0_off1 k) S512x1024.size (k0_off1_inb k)).toLoadRect X3)
            (View.readAt (Elt Ideal) arg4.view (Rect.unit (s := S512x8192) (k0_off1 k) S512x1024.size (k0_off1_inb k)).toLoadRect X4)
            (View.readAt (Elt Ideal) arg6.view (Rect.unit (s := S128x8192) (k0_off3 k) S128x1024.size (k0_off3_inb k)).toLoadRect X6)
            (View.readAt (Elt Ideal) arg7.view (Rect.unit (s := S128x8192) (k0_off3 k) S128x1024.size (k0_off3_inb k)).toLoadRect X7),
         k0_pay5 (F := Ideal) v0 v2 acc.2
            (View.readAt (Elt Ideal) arg3.view (Rect.unit (s := S512x8192) (k0_off1 k) S512x1024.size (k0_off1_inb k)).toLoadRect X3)
            (View.readAt (Elt Ideal) arg4.view (Rect.unit (s := S512x8192) (k0_off1 k) S512x1024.size (k0_off1_inb k)).toLoadRect X4)
            (View.readAt (Elt Ideal) arg5.view (Rect.unit (s := S8192x512) (k0_off2 k) S1024x512.size (k0_off2_inb k)).toLoadRect X5)
            (View.readAt (Elt Ideal) arg6.view (Rect.unit (s := S128x8192) (k0_off3 k) S128x1024.size (k0_off3_inb k)).toLoadRect X6)
            (View.readAt (Elt Ideal) arg7.view (Rect.unit (s := S128x8192) (k0_off3 k) S128x1024.size (k0_off3_inb k)).toLoadRect X7)) := by
  unfold tripR_k0_t1 trip_k0_t1
  rfl

/-! ## A run's weights in the argument arrays -/

/-- Under the staging hypotheses the weight of trip `k`'s run at (row r, lane l) is the weight of key `1024·k + l` for
    query row `g r`. -/
theorem runWeight_staged (hS : Staged A0 A1 A2 A3 A4 A5 A6 A7 A8 g x0 x1 x2 x3 x4 x5 x6) (k : Fin k0_t1_loop.trips)
    (r : Fin 128) (l : Fin 1024) :
    runWeight x0 x1
        (View.readAt (Elt Ideal) arg3.view (Rect.unit (s := S512x8192) (k0_off1 k) S512x1024.size (k0_off1_inb k)).toLoadRect (harg3.unread x2))
        (View.readAt (Elt Ideal) arg4.view (Rect.unit (s := S512x8192) (k0_off1 k) S512x1024.size (k0_off1_inb k)).toLoadRect (harg4.unread x3))
        (View.readAt (Elt Ideal) arg6.view (Rect.unit (s := S128x8192) (k0_off3 k) S128x1024.size (k0_off3_inb k)).toLoadRect (harg6.unread x5))
        (View.readAt (Elt Ideal) arg7.view (Rect.unit (s := S128x8192) (k0_off3 k) S128x1024.size (k0_off3_inb k)).toLoadRect (harg7.unread x6)) r l
      = kweightN A0 A1 A2 A3 A4 A5 A6 (g r) (1024 * k.val + l.val) := by
  have hk : 1024 * k.val + l.val < 8192 := by have := k.isLt; have h8 := trips_eq; have := l.isLt; omega
  unfold runWeight kweightN
  rw [dif_pos hk]
  unfold kweight kscore
  simp only [fun h => keyRun_apply arg3 harg3 x2 k h l hk, fun h => keyRun_apply arg4 harg4 x3 k h l hk,
    maskRun_apply arg6 harg6 x5 k r l hk, maskRun_apply arg7 harg7 x6 k r l hk,
    hS.q, hS.qf, hS.k, hS.kf, hS.mask, hS.maskf, cmpi_ne_setWidth]

/-! ## The loop's state, trip by trip -/

theorem hz2 : (![0, 0] : Fin 2 → Nat) = fun _ => 0 := funext fun a => by fin_cases a <;> rfl

/-- The loop's state before trip `k`: the carried row sums and weighted sums, and the pieces stored so far (last first). -/
abbrev stK (k : ℕ) :=
  st_k0_t1 (F := Ideal) Variants.none c none i arg1 harg1 arg2 harg2 arg3 harg3 arg4 harg4 arg5 harg5 arg6 harg6 arg7 harg7 arg8 harg8 arg9 harg9 x0 x1 (harg3.unread x2) (harg4.unread x3) (harg5.unread x4) (harg6.unread x5) (harg7.unread x6) (k0_pay1, k0_pay2) k

/-- The weight of key `y 1` for the query row that local row `y 0` stands for, as a function of the attention block's index. -/
def blockWeight (y : S128x8192.Idx) : EReal :=
  kweight A0 A1 A2 A3 A4 A5 A6 (g ⟨(y 0).val, (y 0).isLt⟩) ⟨(y 1).val, (y 1).isLt⟩

/-- By induction over the trips: the carried row sums are the sums over the first `k` runs, the carried weighted sums
    likewise, and every piece stored so far is a block of `blockWeight`. -/
theorem state_inv (hS : Staged A0 A1 A2 A3 A4 A5 A6 A7 A8 g x0 x1 x2 x3 x4 x5 x6) : ∀ k : ℕ, k ≤ 8 →
    (∀ (r : Fin 128) (u : Fin 1), (stK x0 x1 x2 x3 x4 x5 x6 c i arg1 harg1 arg2 harg2 arg3 harg3 arg4 harg4 arg5 harg5 arg6 harg6 arg7 harg7 arg8 harg8 arg9 harg9 k).1.1 (ix2 r u) = kden A0 A1 A2 A3 A4 A5 A6 (g r) k)
    ∧ (∀ (r : Fin 128) (d : Fin 512), (stK x0 x1 x2 x3 x4 x5 x6 c i arg1 harg1 arg2 harg2 arg3 harg3 arg4 harg4 arg5 harg5 arg6 harg6 arg7 harg7 arg8 harg8 arg9 harg9 k).1.2 (ix2 r d) = kacc A0 A1 A2 A3 A4 A5 A6 A7 A8 (g r) d k)
    ∧ (∀ p ∈ (stK x0 x1 x2 x3 x4 x5 x6 c i arg1 harg1 arg2 harg2 arg3 harg3 arg4 harg4 arg5 harg5 arg6 harg6 arg7 harg7 arg8 harg8 arg9 harg9 k).2, ∀ y : p.1.shape.Idx,
        p.2 y = blockWeight A0 A1 A2 A3 A4 A5 A6 g (p.1.emb y))
  | 0, _ => by
    refine ⟨fun r u => ?_, fun r d => ?_, fun p hp => absurd hp List.not_mem_nil⟩
    · show k0_pay1 (F := Ideal) (ix2 r u) = _
      rw [pay1_apply]; unfold kden; simp
    · show k0_pay2 (F := Ideal) (ix2 r d) = _
      rw [pay2_apply]; unfold kacc; simp
  | k + 1, hk1 => by
    obtain ⟨h1, h2, h3⟩ := state_inv hS k (by omega)
    have hk' : k < k0_t1_loop.trips := by have := trips_eq; omega
    have e : stK x0 x1 x2 x3 x4 x5 x6 c i arg1 harg1 arg2 harg2 arg3 harg3 arg4 harg4 arg5 harg5 arg6 harg6 arg7 harg7 arg8 harg8 arg9 harg9 (k + 1)
        = (tripR_k0_t1 (F := Ideal) Variants.none c none i arg1 harg1 arg2 harg2 arg3 harg3 arg4 harg4 arg5 harg5 arg6 harg6 arg7 harg7 arg8 harg8 arg9 harg9 x0 x1 (harg3.unread x2) (harg4.unread x3) (harg5.unread x4) (harg6.unread x5) (harg7.unread x6) ⟨k, hk'⟩ (stK x0 x1 x2 x3 x4 x5 x6 c i arg1 harg1 arg2 harg2 arg3 harg3 arg4 harg4 arg5 harg5 arg6 harg6 arg7 harg7 arg8 harg8 arg9 harg9 k).1,
           tripL_k0_t1 (F := Ideal) Variants.none c none i arg1 harg1 arg2 harg2 arg3 harg3 arg4 harg4 arg5 harg5 arg6 harg6 arg7 harg7 arg8 harg8 arg9 harg9 x0 x1 (harg3.unread x2) (harg4.unread x3) (harg5.unread x4) (harg6.unread x5) (harg7.unread x6) ⟨k, hk'⟩ (stK x0 x1 x2 x3 x4 x5 x6 c i arg1 harg1 arg2 harg2 arg3 harg3 arg4 harg4 arg5 harg5 arg6 harg6 arg7 harg7 arg8 harg8 arg9 harg9 k).1
             ++ (stK x0 x1 x2 x3 x4 x5 x6 c i arg1 harg1 arg2 harg2 arg3 harg3 arg4 harg4 arg5 harg5 arg6 harg6 arg7 harg7 arg8 harg8 arg9 harg9 k).2) :=
      st_k0_t1_succ (F := Ideal) Variants.none c none i arg1 harg1 arg2 harg2 arg3 harg3 arg4 harg4 arg5 harg5 arg6 harg6 arg7 harg7 arg8 harg8 arg9 harg9 x0 x1 (harg3.unread x2) (harg4.unread x3) (harg5.unread x4) (harg6.unread x5) (harg7.unread x6) (k0_pay1, k0_pay2) ⟨k, hk'⟩
    rw [e, tripR_eq, tripL_eq]
    refine ⟨fun r u => ?_, fun r d => ?_, fun p hp y => ?_⟩
    · show k0_pay4 (F := Ideal) _ _ _ _ _ _ _ (ix2 r u) = _
      rw [pay4_apply, h1 r u]
      unfold kden
      rw [Finset.sum_range_succ, add_assoc]
      exact congrArg _ (congrArg _ (Finset.sum_congr rfl fun l _ => runWeight_staged A0 A1 A2 A3 A4 A5 A6 A7 A8 g x0 x1 x2 x3 x4 x5 x6 arg3 harg3 arg4 harg4 arg6 harg6 arg7 harg7 hS ⟨k, hk'⟩ r l))
    · show k0_pay5 (F := Ideal) _ _ _ _ _ _ _ _ (ix2 r d) = _
      rw [pay5_apply, h2 r d]
      unfold kacc
      rw [Finset.sum_range_succ, add_assoc]
      refine congrArg _ (congrArg _ (Finset.sum_congr rfl fun l _ => ?_))
      have hkl : 1024 * k + l.val < 8192 := by have := l.isLt; omega
      rw [runWeight_staged A0 A1 A2 A3 A4 A5 A6 A7 A8 g x0 x1 x2 x3 x4 x5 x6 arg3 harg3 arg4 harg4 arg6 harg6 arg7 harg7 hS ⟨k, hk'⟩ r l,
        valueRun_apply arg5 harg5 x4 ⟨k, hk'⟩ l d hkl, hS.v]
      unfold ktermN kweightN
      rw [dif_pos hkl, dif_pos hkl]
    · rcases List.mem_append.mp hp with hp | hp
      · obtain rfl := List.mem_singleton.mp hp
        obtain ⟨r, l, rfl⟩ : ∃ (r : Fin 128) (l : Fin 1024), y = ix2 r l := ⟨y 0, y 1, eq_ix2 y⟩
        have hkl : 1024 * k + l.val < 8192 := by have := l.isLt; omega
        show k0_pay3 (F := Ideal) _ _ _ _ _ _ (ix2 r l) = _
        rw [pay3_apply, runWeight_staged A0 A1 A2 A3 A4 A5 A6 A7 A8 g x0 x1 x2 x3 x4 x5 x6 arg3 harg3 arg4 harg4 arg6 harg6 arg7 harg7 hS ⟨k, hk'⟩ r l]
        unfold kweightN blockWeight
        rw [dif_pos hkl]
        have e3 := k0_off3_eq ⟨k, hk'⟩
        have e0 : (⟨(((Rect.unit (s := S128x8192) (k0_off3 ⟨k, hk'⟩) S128x1024.size (k0_off3_inb ⟨k, hk'⟩)).emb (ix2 r l)) 0).val,
            (((Rect.unit (s := S128x8192) (k0_off3 ⟨k, hk'⟩) S128x1024.size (k0_off3_inb ⟨k, hk'⟩)).emb (ix2 r l)) 0).isLt⟩ : Fin 128) = r :=
          Fin.ext (by show (k0_off3 ⟨k, hk'⟩) 0 + 1 * r.val = r.val; rw [e3]; simp)
        have e1 : (⟨(((Rect.unit (s := S128x8192) (k0_off3 ⟨k, hk'⟩) S128x1024.size (k0_off3_inb ⟨k, hk'⟩)).emb (ix2 r l)) 1).val,
            (((Rect.unit (s := S128x8192) (k0_off3 ⟨k, hk'⟩) S128x1024.size (k0_off3_inb ⟨k, hk'⟩)).emb (ix2 r l)) 1).isLt⟩ : Fin 8192) = ⟨1024 * k + l.val, hkl⟩ :=
          Fin.ext (by show (k0_off3 ⟨k, hk'⟩) 1 + 1 * l.val = 1024 * k + l.val; rw [e3]; simp)
        rw [e0, e1]
      · exact h3 p hp y

/-! ## The two output blocks -/

/-- The body's whole-block loads of the two query blocks read the blocks. -/
theorem wholeLoad_apply (arg : Memref sig .tc .vmem S128x512 .bf16) (harg : arg.IsWhole) (x : Vec Ideal S128x512 .bf16) :
    View.readAt (Elt Ideal) arg.view (Rect.unit (s := S128x512) ![0, 0] S128x512.size inb_S128x512_S128x512_0_0).toLoadRect (harg.unread x) = x := by
  rw [View.readAt_eq_ld, harg.read_unread]
  exact View.ld_unit_zero hz2 _ x

/-- The loop's state after its last trip is the state after eight trips from the two query blocks. -/
theorem loopSt_eq : loopSt (F := Ideal) c i arg1 harg1 arg2 harg2 arg3 harg3 arg4 harg4 arg5 harg5 arg6 harg6 arg7 harg7 arg8 harg8 arg9 harg9 x0 x1 x2 x3 x4 x5 x6 = stK x0 x1 x2 x3 x4 x5 x6 c i arg1 harg1 arg2 harg2 arg3 harg3 arg4 harg4 arg5 harg5 arg6 harg6 arg7 harg7 arg8 harg8 arg9 harg9 8 := by
  have ht : Scf.trips k0_t1_loop.lb k0_t1_loop.ub k0_t1_loop.st = 8 := trips_eq
  show st_k0_t1 (F := Ideal) Variants.none c none i arg1 harg1 arg2 harg2 arg3 harg3 arg4 harg4 arg5 harg5 arg6 harg6 arg7 harg7 arg8 harg8 arg9 harg9 _ _ _ _ _ _ _ _ _ = _
  rw [wholeLoad_apply, wholeLoad_apply, ht]

/-- A whole-block load box names each index by itself. -/
theorem wholeBox_idx (y : S128x8192.Idx) :
    (Rect.unit (s := S128x8192) ![0, 0] S128x8192.size inb_S128x8192_S128x8192_0_0).toLoadRect.idx y = y :=
  funext fun a => Fin.ext (by
    show (![0, 0] : Fin 2 → Nat) a + 1 * (y a).val = (y a).val
    rw [hz2]; simp)

/-- The attention block after the body: at (row r, key j) the weight of key `j` for query row `g r` times the reciprocal of
    the row's sum over all eight runs. -/
theorem attnBlock_apply (hS : Staged A0 A1 A2 A3 A4 A5 A6 A7 A8 g x0 x1 x2 x3 x4 x5 x6) (r : Fin 128) (j : Fin 8192) :
    out0_A_7 (F := Ideal) c i arg1 harg1 arg2 harg2 arg3 harg3 arg4 harg4 arg5 harg5 arg6 harg6 arg7 harg7 arg8 harg8 arg9 harg9 x0 x1 x2 x3 x4 x5 x6 (ix2 r j) = kattn A0 A1 A2 A3 A4 A5 A6 (g r) j := by
  obtain ⟨h1, -, h3⟩ := state_inv A0 A1 A2 A3 A4 A5 A6 A7 A8 g x0 x1 x2 x3 x4 x5 x6 c i arg1 harg1 arg2 harg2 arg3 harg3 arg4 harg4 arg5 harg5 arg6 harg6 arg7 harg7 arg8 harg8 arg9 harg9 hS 8 le_rfl
  rw [← loopSt_eq x0 x1 x2 x3 x4 x5 x6 c i arg1 harg1 arg2 harg2 arg3 harg3 arg4 harg4 arg5 harg5 arg6 harg6 arg7 harg7 arg8 harg8 arg9 harg9] at h1 h3
  unfold out0_A_7
  rw [View.read_writes_junk_eq_canon]
  unfold kernelRun0_A
  dsimp only
  rw [View.canon_cons_unit_zero hz2, pay7_apply, View.readCov_eq_canon']
  show View.canon _ ((Rect.unit (s := S128x8192) ![0, 0] S128x8192.size inb_S128x8192_S128x8192_0_0).toLoadRect.idx (ix2 r j)) * _ = _
  rw [wholeBox_idx,
    View.canon_apply_of_pieces (blockWeight A0 A1 A2 A3 A4 A5 A6 g) _ h3 (ix2 r j) (loopCover c i arg1 harg1 arg2 harg2 arg3 harg3 arg4 harg4 arg5 harg5 arg6 harg6 arg7 harg7 arg8 harg8 arg9 harg9 x0 x1 x2 x3 x4 x5 x6 (ix2 r j)), h1 r 0]
  rfl

/-- The context block after the body: at (row r, feature d) the weighted sum of the value rows over all eight runs times the
    same reciprocal. -/
theorem cntxBlock_apply (hS : Staged A0 A1 A2 A3 A4 A5 A6 A7 A8 g x0 x1 x2 x3 x4 x5 x6) (r : Fin 128) (d : Fin 512) :
    out0_A_8 (F := Ideal) c i arg1 harg1 arg2 harg2 arg3 harg3 arg4 harg4 arg5 harg5 arg6 harg6 arg7 harg7 arg8 harg8 arg9 harg9 x0 x1 x2 x3 x4 x5 x6 (ix2 r d) = kcntx A0 A1 A2 A3 A4 A5 A6 A7 A8 (g r) d := by
  obtain ⟨h1, h2, -⟩ := state_inv A0 A1 A2 A3 A4 A5 A6 A7 A8 g x0 x1 x2 x3 x4 x5 x6 c i arg1 harg1 arg2 harg2 arg3 harg3 arg4 harg4 arg5 harg5 arg6 harg6 arg7 harg7 arg8 harg8 arg9 harg9 hS 8 le_rfl
  rw [← loopSt_eq x0 x1 x2 x3 x4 x5 x6 c i arg1 harg1 arg2 harg2 arg3 harg3 arg4 harg4 arg5 harg5 arg6 harg6 arg7 harg7 arg8 harg8 arg9 harg9] at h1 h2
  unfold out0_A_8
  rw [View.read_writes_junk_eq_canon]
  unfold kernelRun0_A
  dsimp only
  rw [View.canon_unit_zero hz2, pay8_apply]
  exact congrArg₂ (fun a b => a * Ideal.div oneW b) (h2 r d) (h1 r 0)

end Cert.LoopValue

end
-- ==== Proof.LibAllReal.lean ====
/-
  Vectors of extended reals all of whose entries are real numbers.

  At the ideal instance a float is an extended real.  Many algebraic identities (for example the
  expansion of a centred second moment) hold over the reals but fail at an infinity, so a proof
  that uses one must first know that the quantities in play are real numbers.  This file records,
  once and in general, that the operations a program is built from send real entries to real
  entries: constants of finite words, every pure re-indexing, the arithmetic operations, maximum,
  select, real powers, finite sums (reductions, contractions, accumulating scatters) and the
  quotient by a nonzero real.

  `IsReal x` says that the extended real `x` is (the image of) a real number; `AllReal v` says it
  of every entry of the family `v`.  The index type of a family is arbitrary, so the statements
  apply to the vectors `S.Idx → EReal` (that is, `FVec Ideal S φ`) of every shape `S`.
-/
import Mathlib.Tactic
import Idealize.ShloMosaic.PureOps.Ideal
import Idealize.ShloMosaic.PureOps.Ideal.Laws
import Idealize.ShloMosaic.PureOps.Contract
import Idealize.ShloMosaic.PureOps.ShapeOps

namespace Cert.Proof.AllReal

open Idealize.ShloMosaic
open scoped BigOperators

/-! ## One extended real -/

/-- The extended real `x` is (the image of) a real number. -/
def IsReal (x : EReal) : Prop := ∃ r : ℝ, x = (r : EReal)

/-- Every entry of the family `v` is a real number. -/
def AllReal {ι : Type*} (v : ι → EReal) : Prop := ∀ i, IsReal (v i)

/-- Unfolding: every entry is the image of some real. -/
theorem allReal_iff {ι : Type*} (v : ι → EReal) : AllReal v ↔ ∀ i, ∃ r : ℝ, v i = (r : EReal) := Iff.rfl

/-- The image of a real is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real extended real is neither infinity, and conversely. -/
theorem isReal_iff (x : EReal) : IsReal x ↔ x ≠ ⊥ ∧ x ≠ ⊤ := by
  constructor
  · rintro ⟨r, rfl⟩; exact ⟨EReal.coe_ne_bot r, EReal.coe_ne_top r⟩
  · rintro ⟨hb, ht⟩
    induction x using EReal.rec with
    | bot => exact absurd rfl hb
    | top => exact absurd rfl ht
    | coe r => exact ⟨r, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The greater of two reals is real: it is one of them. -/
theorem IsReal.max {x y : EReal} (hx : IsReal x) (hy : IsReal y) : IsReal (max x y) := by
  rcases max_choice x y with h | h <;> rw [h] <;> assumption

/-- The lesser of two reals is real: it is one of them. -/
theorem IsReal.min {x y : EReal} (hx : IsReal x) (hy : IsReal y) : IsReal (min x y) := by
  rcases min_choice x y with h | h <;> rw [h] <;> assumption

/-- The absolute value `max x (-x)` of a real is real. -/
theorem IsReal.abs {x : EReal} (hx : IsReal x) : IsReal (Max.max x (-x)) := IsReal.max hx hx.neg

/-- A real to a real power (`Ideal.pow`, which on two reals is `Real.rpow`) is real. -/
theorem IsReal.pow {x y : EReal} (hx : IsReal x) (hy : IsReal y) : IsReal (Ideal.pow x y) := by
  obtain ⟨a, rfl⟩ := hx; obtain ⟨b, rfl⟩ := hy; exact ⟨Real.rpow a b, Ideal.pow_coe_coe a b⟩

/-- The quotient (`Ideal.div`) of a real by a NONZERO real is real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- Either branch of a choice between two reals is real. -/
theorem IsReal.ite {p : Prop} [Decidable p] {x y : EReal} (hx : IsReal x) (hy : IsReal y) :
    IsReal (if p then x else y) := by
  split_ifs <;> assumption

/-- A finite sum of reals is real. -/
theorem isReal_sum {κ : Type*} (s : Finset κ) (f : κ → EReal) (h : ∀ k ∈ s, IsReal (f k)) :
    IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-! ## Finite words -/

/-- An IEEE-style word whose exponent field is not all ones denotes a real number (a zero, a
    subnormal or a normal: a dyadic rational). -/
theorem isReal_ieee (e m : Nat) {w : Nat} (b : BitVec w) (h : (b.extractLsb' m e).toNat ≠ 2 ^ e - 1) :
    IsReal (Ideal.ieee e m b) := by
  unfold Ideal.ieee
  simp only []
  rw [if_neg h]
  split_ifs <;> exact ⟨_, rfl⟩

/-- A 32-bit float word whose exponent field is not `255` denotes a real number. -/
theorem isReal_ofBits_f32 (b : BitVec 32) (h : (b.extractLsb' 23 8).toNat ≠ 255) :
    IsReal (Ideal.ofBits .f32 b) :=
  isReal_ieee 8 23 b h

/-- A bfloat16 word whose exponent field is not `255` denotes a real number. -/
theorem isReal_ofBits_bf16 (b : BitVec 16) (h : (b.extractLsb' 7 8).toNat ≠ 255) :
    IsReal (Ideal.ofBits .bf16 b) :=
  isReal_ieee 8 7 b h

/-- The word of `0.0`. -/
theorem isReal_f32_zero : IsReal (Ideal.ofBits .f32 0x00000000#32) := isReal_ofBits_f32 _ (by decide)
/-- The word of `1.0`. -/
theorem isReal_f32_one : IsReal (Ideal.ofBits .f32 0x3F800000#32) := isReal_ofBits_f32 _ (by decide)
/-- The word of `-0.5`. -/
theorem isReal_f32_negHalf : IsReal (Ideal.ofBits .f32 0xBF000000#32) := isReal_ofBits_f32 _ (by decide)
/-- The word of `2.0`. -/
theorem isReal_f32_two : IsReal (Ideal.ofBits .f32 0x40000000#32) := isReal_ofBits_f32 _ (by decide)
/-- The word of `50000.0`. -/
theorem isReal_f32_50000 : IsReal (Ideal.ofBits .f32 0x47435000#32) := isReal_ofBits_f32 _ (by decide)
/-- The word `0x3C23D70A` (the float nearest `0.01`). -/
theorem isReal_f32_3C23D70A : IsReal (Ideal.ofBits .f32 0x3C23D70A#32) := isReal_ofBits_f32 _ (by decide)
/-- The word `0x3727C5AC` (the float nearest `1e-5`). -/
theorem isReal_f32_3727C5AC : IsReal (Ideal.ofBits .f32 0x3727C5AC#32) := isReal_ofBits_f32 _ (by decide)

/-! ## Constants and splats -/

/-- The splat of one real value is all real. -/
theorem allReal_broadcast (S : Shape) {x : EReal} (hx : IsReal x) : AllReal (broadcast S x) :=
  fun _ => hx

/-- A constant vector of a word that denotes a real is all real. -/
theorem allReal_constant (S : Shape) (φ : FTy) (w : BitVec φ.bits) (h : IsReal (Ideal.ofBits φ w)) :
    AllReal (constant (F := Ideal) S φ w) :=
  fun _ => h

/-- A constant `f32` vector of a finite word is all real. -/
theorem allReal_constant_f32 (S : Shape) (w : BitVec 32) (h : (w.extractLsb' 23 8).toNat ≠ 255) :
    AllReal (constant (F := Ideal) S .f32 w) :=
  allReal_constant S .f32 w (isReal_ofBits_f32 w h)

/-- The splat of the scalar constant of a finite `f32` word is all real. -/
theorem allReal_broadcast_ofBits_f32 (S : Shape) (w : BitVec 32) (h : (w.extractLsb' 23 8).toNat ≠ 255) :
    AllReal (broadcast S (Scalar.ofBits (F := Ideal) .f32 w)) :=
  allReal_broadcast S (isReal_ofBits_f32 w h)

/-! ## Re-indexings -/

/-- THE re-indexing lemma: if every entry of `out` is some entry of `inp`, and `inp` is all real,
    so is `out`. -/
theorem allReal_of_reindex {ι κ : Type*} {inp : κ → EReal} {out : ι → EReal}
    (h : ∀ i, ∃ j, out i = inp j) (hin : AllReal inp) : AllReal out := fun i => by
  obtain ⟨j, hj⟩ := h i
  rw [hj]; exact hin j

/-- Composition with any index map. -/
theorem allReal_comp {ι κ : Type*} {inp : κ → EReal} (f : ι → κ) (hin : AllReal inp) :
    AllReal (fun i => inp (f i)) :=
  allReal_of_reindex (fun i => ⟨f i, rfl⟩) hin

/-- `stablehlo.gather`: each result entry is an operand entry. -/
theorem allReal_gather {s si t : Shape} {w : Nat} (d : GatherDims s si t) (x : s.Idx → EReal) (idx : IVec si w)
    (hx : AllReal x) : AllReal (Host.gather d x idx) :=
  allReal_of_reindex (fun j => ⟨d.operandIdx j idx, rfl⟩) hx

/-- `stablehlo.broadcast_in_dim`. -/
theorem allReal_broadcastInDim {s : Shape} (t : Shape) (dims : Fin s.rank → Fin t.rank)
    (h : s.BroadcastsInDim t dims) (x : s.Idx → EReal) (hx : AllReal x) :
    AllReal (broadcastInDim t dims h x) :=
  allReal_of_reindex (inp := x) (fun _ => ⟨_, rfl⟩) hx

/-- `vector.broadcast` of a vector. -/
theorem allReal_broadcastTo {s : Shape} (t : Shape) (x : s.Idx → EReal) (h : s.Broadcasts t) (hx : AllReal x) :
    AllReal (broadcastTo t x h) :=
  allReal_of_reindex (inp := x) (fun _ => ⟨_, rfl⟩) hx

/-- `vector.shape_cast` (and the host's `reshape`, which is the same re-indexing). -/
theorem allReal_shapeCast {s : Shape} (t : Shape) (x : s.Idx → EReal) (h : s.ShapeCasts t) (hx : AllReal x) :
    AllReal (shapeCast t x h) :=
  allReal_of_reindex (fun j => ⟨Shape.reshapeEquiv h j, rfl⟩) hx

/-- `tpu.transpose`. -/
theorem allReal_transpose {s : Shape} (t : Shape) (perm : List (Fin s.rank)) (x : s.Idx → EReal)
    (h : s.Transposes perm t) (hx : AllReal x) : AllReal (transpose t perm x h) :=
  allReal_of_reindex (fun j => ⟨h.src j, rfl⟩) hx

/-- A widening format change is the identity at the ideal instance. -/
theorem allReal_extf {s : Shape} {φ : FTy} (ψ : FTy) (x : FVec Ideal s φ) (h : φ.bits < ψ.bits) (hx : AllReal x) :
    AllReal (extf ψ x h) :=
  fun i => hx i

/-- A narrowing format change is the identity at the ideal instance. -/
theorem allReal_truncf {s : Shape} {φ : FTy} (ψ : FTy) (x : FVec Ideal s φ) (h : ψ.bits < φ.bits) (hx : AllReal x) :
    AllReal (truncf ψ x h) :=
  fun i => hx i

/-! ## Elementwise arithmetic -/

section Elementwise
variable {s : Shape} {φ : FTy}

/-- `mulf`. -/
theorem allReal_mulf {x y : FVec Ideal s φ} (hx : AllReal x) (hy : AllReal y) : AllReal (mulf x y) :=
  fun i => (hx i).mul (hy i)

/-- `addf`. -/
theorem allReal_addf {x y : FVec Ideal s φ} (hx : AllReal x) (hy : AllReal y) : AllReal (addf x y) :=
  fun i => (hx i).add (hy i)

/-- `subf`. -/
theorem allReal_subf {x y : FVec Ideal s φ} (hx : AllReal x) (hy : AllReal y) : AllReal (subf x y) :=
  fun i => (hx i).sub (hy i)

/-- `maximumf` (the host's `stablehlo.maximum` is printed with the same function). -/
theorem allReal_maximumf {x y : FVec Ideal s φ} (hx : AllReal x) (hy : AllReal y) : AllReal (maximumf x y) :=
  fun i => (hx i).max (hy i)

/-- `minimumf`. -/
theorem allReal_minimumf {x y : FVec Ideal s φ} (hx : AllReal x) (hy : AllReal y) : AllReal (minimumf x y) :=
  fun i => (hx i).min (hy i)

/-- `negf`. -/
theorem allReal_negf {x : FVec Ideal s φ} (hx : AllReal x) : AllReal (negf x) :=
  fun i => (hx i).neg

/-- The host's `negate`. -/
theorem allReal_host_negf {x : FVec Ideal s φ} (hx : AllReal x) : AllReal (Host.negf x) :=
  fun i => (hx i).neg

/-- `absf`. -/
theorem allReal_absf {x : FVec Ideal s φ} (hx : AllReal x) : AllReal (absf x) :=
  fun i => (hx i).abs

/-- The host's `abs`. -/
theorem allReal_host_absf {x : FVec Ideal s φ} (hx : AllReal x) : AllReal (Host.absf x) :=
  fun i => (hx i).abs

/-- `arith.select`, lane by lane: whichever branch is taken is real. -/
theorem allReal_select (c : IVec s 1) {a b : s.Idx → EReal} (ha : AllReal a) (hb : AllReal b) :
    AllReal (select c a b) := fun i => by
  unfold Idealize.ShloMosaic.select Idealize.ShloMosaic.Scalar.select
  exact (ha i).ite (hb i)

/-- The kernel's `math.powf`. -/
theorem allReal_powf {x y : FVec Ideal s φ} (hx : AllReal x) (hy : AllReal y) : AllReal (powf x y) :=
  fun i => (hx i).pow (hy i)

/-- The host's `stablehlo.power`. -/
theorem allReal_host_powf {x y : FVec Ideal s φ} (hx : AllReal x) (hy : AllReal y) : AllReal (Host.powf x y) :=
  fun i => (hx i).pow (hy i)

/-- The kernel's `arith.divf` by a vector with no zero entry. -/
theorem allReal_divf {x y : FVec Ideal s φ} (hx : AllReal x) (hy : AllReal y) (h0 : ∀ i, y i ≠ 0) :
    AllReal (divf x y) :=
  fun i => (hx i).div (hy i) (h0 i)

/-- The host's `stablehlo.divide` by a vector with no zero entry. -/
theorem allReal_host_divf {x y : FVec Ideal s φ} (hx : AllReal x) (hy : AllReal y) (h0 : ∀ i, y i ≠ 0) :
    AllReal (Host.divf x y) :=
  fun i => (hx i).div (hy i) (h0 i)

end Elementwise

/-! ## Finite sums: scatters, contractions, reductions -/

/-- The host's accumulating scatter: each operand entry plus a finite sum of update entries. -/
theorem allReal_scatterAdd {s si u : Shape} {w : Nat} {φ : FTy} (d : ScatterDims s si u) (x : FVec Ideal s φ)
    (idx : IVec si w) (upd : FVec Ideal u φ) (hx : AllReal x) (hu : AllReal upd) :
    AllReal (Host.scatterAdd d x idx upd) := fun i => by
  change IsReal (x i + Finset.sum _ _)
  exact (hx i).add (isReal_sum _ _ fun j _ => hu j)

/-- `tpu.matmul`: the accumulator plus a finite sum of products. -/
theorem allReal_matmul {sl sr so : Shape} {φ₁ φ₂ : FTy} (d : DotDims sl sr so) (prec : Option ContractPrecision)
    (lhs : FVec Ideal sl φ₁) (rhs : FVec Ideal sr φ₂) (acc : FVec Ideal so .f32)
    (hl : AllReal lhs) (hr : AllReal rhs) (ha : AllReal acc) : AllReal (matmul d prec lhs rhs acc) := fun j => by
  change IsReal (acc j + ∑ k : d.contr.Idx, lhs (d.lhsIdx j k) * rhs (d.rhsIdx j k))
  exact (ha j).add (isReal_sum _ _ fun k _ => (hl _).mul (hr _))

/-- `tpu.matmul` into the zero accumulator. -/
theorem allReal_matmul_zero {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (matmul d prec lhs rhs (constant so .f32 0x00000000#32)) :=
  allReal_matmul d prec lhs rhs _ hl hr (allReal_constant so .f32 _ isReal_f32_zero)

/-- The host's `dot_general`: a finite sum of products. -/
theorem allReal_dotGeneral {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (Host.dotGeneral d prec lhs rhs) := fun j => by
  have h := Ideal.dotGeneral_apply d prec .single lhs rhs j
  change IsReal (FloatOps.dotGeneral d prec .single lhs rhs j)
  rw [h]
  exact isReal_sum _ _ fun k _ => (hl _).mul (hr _)

/-- `vector.multi_reduction <add>`: a finite sum of source entries. -/
theorem allReal_multiReduction_add {s t : Shape} {φ : FTy} (axes : List (Fin s.rank)) (src : FVec Ideal s φ)
    (acc : BitVec φ.bits) (h : s.Reduces axes t) (hφ : FKind.Formats φ) (hacc : acc = FKind.add.neutral φ hφ)
    (hs : AllReal src) : AllReal (multiReduction .add axes t src acc h hφ hacc) := fun j => by
  have e : multiReduction .add axes t src acc h hφ hacc j = Ideal.reduceAdd h src j := rfl
  rw [e]
  unfold Ideal.reduceAdd
  exact isReal_sum _ _ fun i _ => hs i

/-- The host's float `stablehlo.reduce … add`: the initial value plus a finite sum of operand entries. -/
theorem allReal_host_reduceAdd {s t u : Shape} {φ : FTy} {axes : List (Fin s.rank)} (x : FVec Ideal s φ)
    (init : u.Idx → Ideal φ) (h : s.ReducesTo axes t) (hu : 0 < u.numel) (hx : AllReal x) (hi : AllReal init) :
    AllReal (Host.reduceAdd x init h hu) := fun j => by
  change IsReal (init _ + Finset.sum _ _)
  exact (hi _).add (isReal_sum _ _ fun i _ => hx i)

end Cert.Proof.AllReal
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibInDimRows.lean ====
/-
  The host's broadcast_in_dim of a per-row quantity over a rank-3 array, read at an index (any element type):
  a vector [a] placed on axis 0 of a column [a,1,1]; a column [a,1,1] spread over [a,b,c]; and a scalar spread
  over any shape. Entry (g, ·, ·) of each reads entry g (resp. the one entry) of the operand.
-/
import Idealize.ShloMosaic.Lib.Pipeline.Value
import Idealize.ShloMosaic.Lib.ValueIdx

namespace Cert.LibInDimRows

open Idealize.ShloMosaic Idealize.ShloMosaic.ValueIdx

variable {α : Type}

/-- A vector [a] as a column [a,1,1]: entry (g, u, v) is entry g. -/
theorem vec_col_apply {a : ℕ} (h : (⟨1, ![a]⟩ : Shape).BroadcastsInDim ⟨3, ![a, 1, 1]⟩ (![0] : Fin 1 → Fin 3))
    (x : (⟨1, ![a]⟩ : Shape).Idx → α) (g : Fin a) (u v : Fin 1) :
    broadcastInDim ⟨3, ![a, 1, 1]⟩ ![0] h x (ix3 g u v) = x (ix1 g) :=
  broadcastInDim_apply _ h x _ _ (fun d => by
    match d with
    | ⟨0, _⟩ =>
      show g.val = if a = 1 then 0 else g.val
      split_ifs with h1
      · have := g.isLt; omega
      · rfl)

/-- A column [a,1,1] spread over [a,b,c]: entry (g, k, d) is entry (g, 0, 0). -/
theorem col_spread_apply {a b c : ℕ} (h : (⟨3, ![a, 1, 1]⟩ : Shape).BroadcastsInDim ⟨3, ![a, b, c]⟩ (![0, 1, 2] : Fin 3 → Fin 3))
    (x : (⟨3, ![a, 1, 1]⟩ : Shape).Idx → α) (g : Fin a) (k : Fin b) (d : Fin c) :
    broadcastInDim ⟨3, ![a, b, c]⟩ ![0, 1, 2] h x (ix3 g k d) = x (ix3 g (0 : Fin 1) (0 : Fin 1)) :=
  broadcastInDim_apply _ h x _ _ (fun e => by
    match e with
    | ⟨0, _⟩ =>
      show g.val = if a = 1 then 0 else g.val
      split_ifs with h1
      · have := g.isLt; omega
      · rfl
    | ⟨1, _⟩ => show 0 = if (1 : ℕ) = 1 then 0 else k.val; rw [if_pos rfl]
    | ⟨2, _⟩ => show 0 = if (1 : ℕ) = 1 then 0 else d.val; rw [if_pos rfl])

/-- A scalar spread over any shape: every entry is the scalar. -/
theorem scalar_spread_apply {t : Shape} (h : (⟨0, ![]⟩ : Shape).BroadcastsInDim t (![] : Fin 0 → Fin t.rank))
    (x : (⟨0, ![]⟩ : Shape).Idx → α) (i : t.Idx) : broadcastInDim t ![] h x i = x ix0 :=
  broadcastInDim_apply _ h x _ _ (fun e => e.elim0)

end Cert.LibInDimRows
-- ==== Proof.HostSide.lean ====
import proofs.«171019_j49134425866850_2_alg».proof.Proof.Gen.KernelIdeal.Frame.Runs
import proofs.«171019_j49134425866850_2_alg».proof.Proof.Gen.Pre_finite_inputs
import proofs.«171019_j49134425866850_2_alg».proof.Defs
import proofs.«171019_j49134425866850_2_alg».proof.Proof.AttnSpec
import proofs.«171019_j49134425866850_2_alg».proof.Proof.LibAllReal
import proofs.«171019_j49134425866850_2_alg».proof.Proof.LibInnerProducts
import proofs.«171019_j49134425866850_2_alg».proof.Proof.LibInDimRow
import proofs.«171019_j49134425866850_2_alg».proof.Proof.LibInDimRows
import Idealize.ShloMosaic.Lib.ReduceAll
import Idealize.ShloMosaic.Lib.StableHlo.Run

/-
  The arrays the pipelined region finds, read at an index, and the finiteness of the argument arrays.

  Before the region the program computes, from the input rows x and the weight matrices, the two branches' query rows
  (each projection times the scale), the two branches' key rows (transposed), the value rows (projection plus bias), and
  widens the two one-bit masks to 32-bit words.  Each of these arrays is a composition of a matrix product, a broadcast,
  an elementwise product or sum, a change of float format (the identity on extended reals) and a transposition; read at
  an index each is the corresponding entry of the specification: a projection, a projection times the scale, a value
  entry, or the mask bit widened.
-/

noncomputable section

namespace Cert.HostSide

open Idealize.ShloMosaic Idealize.ShloMosaic.ValueIdx Idealize.SL.Sem
open Cert.KernelIdeal Cert.KernelIdeal.Gen Cert.AttnSpec
open Idealize.ShloMosaic.InnerProducts Cert.LibInDimRow Cert.LibInDimRows
open scoped BigOperators

section Arrays

variable (m : (ℓ : Loc Cert.KernelIdeal.nD Cert.KernelIdeal.τ Cert.KernelIdeal.sig) → Buf (Elt Ideal) ℓ)
  (c : Dev Cert.KernelIdeal.nD)

/-! ## The argument arrays -/

/-- The input rows. -/
abbrev A0 : SRows.Idx → EReal := m ((c.tc : Thread nD τ).loc main_arg0)
/-- The first branch's mask. -/
abbrev A1 : SPairs.Idx → BitVec 1 := m ((c.tc : Thread nD τ).loc main_arg1)
/-- The second branch's mask. -/
abbrev A2 : SPairs.Idx → BitVec 1 := m ((c.tc : Thread nD τ).loc main_arg2)
/-- The first branch's query weights. -/
abbrev A3 : SWeights.Idx → EReal := m ((c.tc : Thread nD τ).loc main_arg3)
/-- The first branch's key weights. -/
abbrev A4 : SWeights.Idx → EReal := m ((c.tc : Thread nD τ).loc main_arg4)
/-- The second branch's query weights. -/
abbrev A5 : SWeights.Idx → EReal := m ((c.tc : Thread nD τ).loc main_arg5)
/-- The second branch's key weights. -/
abbrev A6 : SWeights.Idx → EReal := m ((c.tc : Thread nD τ).loc main_arg6)
/-- The value weights. -/
abbrev A7 : SWeights.Idx → EReal := m ((c.tc : Thread nD τ).loc main_arg7)
/-- The value bias. -/
abbrev A8 : SBias.Idx → EReal := m ((c.tc : Thread nD τ).loc main_arg8)

/-! ## A widened mask bit compared with zero is the bit -/

theorem mask_ne_zero (b : BitVec 1) : IntOp.cmpi .ne (b.setWidth 32) (0#32) = b := by
  revert b; decide

/-- The program's dimension numbers of its projections are the plain ones: contract the columns of the left factor
    with the rows of the right. -/
theorem dot_plain : dot_S8192x512_S512x512_S8192x512_1_0_0_1_n_n = DotDims.plain 8192 512 512 := rfl

/-! ## The query rows -/

/-- A projection, scaled, in the narrower float format: at (n, h) the projection's entry times the scale. -/
theorem scaled_proj_apply (x : SRows.Idx → EReal) (W : SWeights.Idx → EReal) (n : Fin 8192) (h : Fin 512) :
    (truncf .bf16 (mulf (φ := .f32)
        (Host.dotGeneral (φ₁ := .f32) (φ₂ := .f32) dot_S8192x512_S512x512_S8192x512_1_0_0_1_n_n none (x : FVec Ideal S8192x512 .f32) (W : FVec Ideal S512x512 .f32))
        (broadcastInDim S8192x512 ![] bcast_S_S8192x512 (constant (F := Ideal) S_ .f32 0x3D3504F3#32)))
      bitsLt_bf16_f32 : FVec Ideal S8192x512 .bf16) (ix2 n h) = proj x W n h * scaleW := by
  rw [truncf_apply, mulf_apply, scalar_spread_apply, constant_apply, dotGeneral_apply _ dot_plain]
  rfl

theorem V_queries_r (n : Fin 8192) (h : Fin 512) :
    (V m c main_v3 : S8192x512.Idx → EReal) (ix2 n h) = proj (A0 m c) (A3 m c) n h * scaleW := by
  have e : (V m c main_v3 : S8192x512.Idx → EReal)
      = truncf .bf16 (mulf (φ := .f32)
          (Host.dotGeneral (φ₁ := .f32) (φ₂ := .f32) dot_S8192x512_S512x512_S8192x512_1_0_0_1_n_n none (A0 m c : FVec Ideal S8192x512 .f32) (A3 m c : FVec Ideal S512x512 .f32))
          (broadcastInDim S8192x512 ![] bcast_S_S8192x512 (constant (F := Ideal) S_ .f32 0x3D3504F3#32)))
        bitsLt_bf16_f32 := by
    dsimp only [Gen.V, Gen.hostOps0]; after_results
  rw [e]; exact scaled_proj_apply _ _ n h

theorem V_queries_f (n : Fin 8192) (h : Fin 512) :
    (V m c main_v7 : S8192x512.Idx → EReal) (ix2 n h) = proj (A0 m c) (A5 m c) n h * scaleW := by
  have e : (V m c main_v7 : S8192x512.Idx → EReal)
      = truncf .bf16 (mulf (φ := .f32)
          (Host.dotGeneral (φ₁ := .f32) (φ₂ := .f32) dot_S8192x512_S512x512_S8192x512_1_0_0_1_n_n none (A0 m c : FVec Ideal S8192x512 .f32) (A5 m c : FVec Ideal S512x512 .f32))
          (broadcastInDim S8192x512 ![] bcast_S_S8192x512 (constant (F := Ideal) S_ .f32 0x3D3504F3#32)))
        bitsLt_bf16_f32 := by
    dsimp only [Gen.V, Gen.hostOps0]; after_results
  rw [e]; exact scaled_proj_apply _ _ n h

/-! ## The key rows, transposed -/

/-- A projection in the narrower float format, transposed: at (h, k) the projection's entry (k, h). -/
theorem transposed_proj_apply (x : SRows.Idx → EReal) (W : SWeights.Idx → EReal) (h : Fin 512) (k : Fin 8192) :
    (transpose S512x8192 [1, 0]
        (truncf .bf16 (Host.dotGeneral (φ₁ := .f32) (φ₂ := .f32) dot_S8192x512_S512x512_S8192x512_1_0_0_1_n_n none (x : FVec Ideal S8192x512 .f32) (W : FVec Ideal S512x512 .f32))
          bitsLt_bf16_f32 : FVec Ideal S8192x512 .bf16)
        transposes_S8192x512_S512x8192_1_0 : FVec Ideal S512x8192 .bf16) (ix2 h k) = proj x W k h := by
  rw [transpose_apply [1, 0] _ transposes_S8192x512_S512x8192_1_0 (ix2 h k) (ix2 k h)
    (fun b => by match b with | ⟨0, _⟩ => rfl | ⟨1, _⟩ => rfl)]
  rw [truncf_apply, dotGeneral_apply _ dot_plain]
  rfl

theorem V_keys_r (h : Fin 512) (k : Fin 8192) :
    (V m c main_v10 : S512x8192.Idx → EReal) (ix2 h k) = proj (A0 m c) (A4 m c) k h := by
  have e : (V m c main_v10 : S512x8192.Idx → EReal)
      = transpose S512x8192 [1, 0]
          (truncf .bf16 (Host.dotGeneral (φ₁ := .f32) (φ₂ := .f32) dot_S8192x512_S512x512_S8192x512_1_0_0_1_n_n none (A0 m c : FVec Ideal S8192x512 .f32) (A4 m c : FVec Ideal S512x512 .f32))
            bitsLt_bf16_f32 : FVec Ideal S8192x512 .bf16)
          transposes_S8192x512_S512x8192_1_0 := by
    dsimp only [Gen.V, Gen.hostOps0]; after_results
  rw [e]; exact transposed_proj_apply _ _ h k

theorem V_keys_f (h : Fin 512) (k : Fin 8192) :
    (V m c main_v13 : S512x8192.Idx → EReal) (ix2 h k) = proj (A0 m c) (A6 m c) k h := by
  have e : (V m c main_v13 : S512x8192.Idx → EReal)
      = transpose S512x8192 [1, 0]
          (truncf .bf16 (Host.dotGeneral (φ₁ := .f32) (φ₂ := .f32) dot_S8192x512_S512x512_S8192x512_1_0_0_1_n_n none (A0 m c : FVec Ideal S8192x512 .f32) (A6 m c : FVec Ideal S512x512 .f32))
            bitsLt_bf16_f32 : FVec Ideal S8192x512 .bf16)
          transposes_S8192x512_S512x8192_1_0 := by
    dsimp only [Gen.V, Gen.hostOps0]; after_results
  rw [e]; exact transposed_proj_apply _ _ h k

/-! ## The value rows -/

/-- A projection plus a bias row spread over the rows, in the narrower float format: at (k, d) the value entry. -/
theorem biased_proj_apply (x : SRows.Idx → EReal) (W : SWeights.Idx → EReal) (b : SBias.Idx → EReal)
    (k : Fin 8192) (d : Fin 512) :
    (truncf .bf16 (addf (φ := .f32)
        (Host.dotGeneral (φ₁ := .f32) (φ₂ := .f32) dot_S8192x512_S512x512_S8192x512_1_0_0_1_n_n none (x : FVec Ideal S8192x512 .f32) (W : FVec Ideal S512x512 .f32))
        (broadcastInDim S8192x512 ![0, 1] bcast_S1x512_S8192x512_0_1
          (broadcastInDim S1x512 ![1] bcast_S512_S1x512_1 (b : FVec Ideal S512 .f32))))
      bitsLt_bf16_f32 : FVec Ideal S8192x512 .bf16) (ix2 k d) = value x W b k d := by
  rw [truncf_apply, addf_apply, inDim_1b_ab_apply, inDim_b_1b_apply, dotGeneral_apply _ dot_plain]
  rfl

theorem V_values (k : Fin 8192) (d : Fin 512) :
    (V m c main_v18 : S8192x512.Idx → EReal) (ix2 k d) = value (A0 m c) (A7 m c) (A8 m c) k d := by
  have e : (V m c main_v18 : S8192x512.Idx → EReal)
      = (truncf .bf16 (addf (φ := .f32)
          (Host.dotGeneral (φ₁ := .f32) (φ₂ := .f32) dot_S8192x512_S512x512_S8192x512_1_0_0_1_n_n none (A0 m c : FVec Ideal S8192x512 .f32) (A7 m c : FVec Ideal S512x512 .f32))
          (broadcastInDim S8192x512 ![0, 1] bcast_S1x512_S8192x512_0_1
            (broadcastInDim S1x512 ![1] bcast_S512_S1x512_1 (A8 m c : FVec Ideal S512 .f32))))
        bitsLt_bf16_f32 : FVec Ideal S8192x512 .bf16) := by
    dsimp only [Gen.V, Gen.hostOps0]; after_results
  rw [e]; exact biased_proj_apply _ _ _ k d

/-! ## The masks, widened -/

theorem V_mask_r (n k : Fin 8192) :
    (V m c main_v19 : S8192x8192.Idx → BitVec 32) (ix2 n k) = (A1 m c (ix2 n k)).setWidth 32 := by
  have e : (V m c main_v19 : S8192x8192.Idx → BitVec 32) = extui 32 (A1 m c : IVec S8192x8192 1) natLt_1_32 := by
    dsimp only [Gen.V, Gen.hostOps0]; after_results
  rw [e]; rfl

theorem V_mask_f (n k : Fin 8192) :
    (V m c main_v20 : S8192x8192.Idx → BitVec 32) (ix2 n k) = (A2 m c (ix2 n k)).setWidth 32 := by
  have e : (V m c main_v20 : S8192x8192.Idx → BitVec 32) = extui 32 (A2 m c : IVec S8192x8192 1) natLt_1_32 := by
    dsimp only [Gen.V, Gen.hostOps0]; after_results
  rw [e]; rfl

end Arrays

/-! ## The argument arrays are real

  The precondition is the conjunction, over the seven float arguments, of "every entry's absolute value is below +∞".
  An extended real whose absolute value is below +∞ is neither infinity, so it is a real number. -/

open Cert.Proof.AllReal

section Finite

variable (m : (ℓ : Loc Cert.KernelIdeal.nD Cert.KernelIdeal.τ Cert.KernelIdeal.sig) → Buf (Elt Ideal) ℓ)

/-- The scalar shape has one index. -/
local instance scalarIdxSubsingleton : Subsingleton (⟨0, ![]⟩ : Shape).Idx := ⟨fun a b => funext fun d => d.elim0⟩

/-- An extended real whose absolute value is below the f32 word for +∞ is a real number. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- If the conjunction over all entries of "the absolute value is below +∞" holds of an array, every entry is real. -/
theorem allReal_of_all_lt_inf {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (e : Host.reduce IntOp.andi
        (cmpf .olt (Host.absf x) (broadcastInDim S ![] hb (constant (F := Ideal) ⟨0, ![]⟩ .f32 0x7F800000#32)))
        (constantI ⟨0, ![]⟩ 1 1#1) hr hu ix0 = 1#1) : AllReal x := by
  intro i
  have h := Host.reduce_andi_all _ _ hr hu ix0 e i
  exact isReal_of_abs_lt_inf _ h

theorem finite_args [Cert.Pre_finite_inputs.Facts] (hpre : Cert.Pre_KernelIdeal m) (c : Dev Cert.KernelIdeal.nD) :
    AllReal (A0 m c) ∧ AllReal (A3 m c) ∧ AllReal (A4 m c) ∧ AllReal (A5 m c) ∧ AllReal (A6 m c)
      ∧ AllReal (A7 m c) ∧ AllReal (A8 m c) := by
  have e := congrFun (hpre c) ix0
  dsimp only [Cert.Pre_finite_inputs.fn, Cert.Pre_finite_inputs.fn_part1, Idealize.ShloMosaic.andi] at e
  simp only [IntOp.andi_eq_one] at e
  obtain ⟨⟨⟨⟨⟨⟨h0, h3⟩, h4⟩, h5⟩, h6⟩, h7⟩, h8⟩ := e
  exact ⟨allReal_of_all_lt_inf _ _ _ _ h0, allReal_of_all_lt_inf _ _ _ _ h3, allReal_of_all_lt_inf _ _ _ _ h4,
    allReal_of_all_lt_inf _ _ _ _ h5, allReal_of_all_lt_inf _ _ _ _ h6, allReal_of_all_lt_inf _ _ _ _ h7,
    allReal_of_all_lt_inf _ _ _ _ h8⟩

end Finite

end Cert.HostSide

end
-- ==== Proof.ArraysValue.lean ====
/-
  The two result arrays of the kernel's program after its run, as whole-array functions of the argument arrays.

  The grid has 64 points; point t stages query rows 128·t … 128·t + 127 (the two scaled query matrices and the two
  masks by blocks of 128 rows, the two transposed key matrices and the value matrix whole) and writes back rows
  128·t … 128·t + 127 of the attention matrix and of the context. The staged blocks hold what the host operations
  before the call computed, so each written block is the block of rows of `kattn` and `kcntx` of AttnSpec; the 64 blocks
  tile the two arrays, so the arrays end holding those functions.
-/
import proofs.«171019_j49134425866850_2_alg».proof.Proof.KernelIdealP.Frame
import proofs.«171019_j49134425866850_2_alg».proof.Proof.LoopValue
import proofs.«171019_j49134425866850_2_alg».proof.Proof.HostSide
import proofs.«171019_j49134425866850_2_alg».proof.Proof.AttnSpec
import Idealize.ShloMosaic.Lib.Pipeline.Value
import Idealize.ShloMosaic.Lib.ValueIdx

set_option maxRecDepth 16384

noncomputable section

namespace Cert.ArraysValue

open Cert.KernelIdeal Cert.KernelIdeal.Gen Cert.KernelIdeal.GenP Cert.AttnSpec Cert.HostSide Cert.LoopValue
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The attention matrix and the context as functions of the result arrays' indices. -/
def attnArr (c : Dev nD) : S8192x8192.Idx → EReal := fun i =>
  kattn (A0 m c) (A1 m c) (A2 m c) (A3 m c) (A4 m c) (A5 m c) (A6 m c) ⟨(i 0).val, (i 0).isLt⟩ ⟨(i 1).val, (i 1).isLt⟩
def cntxArr (c : Dev nD) : S8192x512.Idx → EReal := fun i =>
  kcntx (A0 m c) (A1 m c) (A2 m c) (A3 m c) (A4 m c) (A5 m c) (A6 m c) (A7 m c) (A8 m c) ⟨(i 0).val, (i 0).isLt⟩ ⟨(i 1).val, (i 1).isLt⟩

/-- The array row that local row `r` of point `t`'s blocks stands for. -/
def rowOf (t : Fin cfg0.N) (r : Fin 128) : Fin 8192 :=
  ⟨128 * t.val + r.val, by have := t.isLt; have h : cfg0.N = 64 := N_0; have := r.isLt; omega⟩

/-- The printed index maps, decided over the 64 points: the row-blocked windows (queries, masks, both results) take block
    `t` of rows and block 0 of columns; the whole windows (keys, values) block 0 of both. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- At every point the staged blocks hold the scaled projected queries of the point's rows, the projected keys, the value
    rows and the widened masks. -/
theorem staged (c : Dev nD) (t : Fin cfg0.N) :
    Staged (A0 m c) (A1 m c) (A2 m c) (A3 m c) (A4 m c) (A5 m c) (A6 m c) (A7 m c) (A8 m c) (rowOf t)
      (iblk m c 0 t) (iblk m c 1 t) (iblk m c 2 t) (iblk m c 3 t) (iblk m c 4 t) (iblk m c 5 t) (iblk m c 6 t) := by
  obtain ⟨e00, e01, e10, e11, e20, e21, e30, e31, e40, e41, e50, e51, e60, e61, -⟩ := idx_facts t
  refine ⟨fun r h => ?_, fun r h => ?_, fun h j => ?_, fun h j => ?_, fun j d => ?_, fun r j => ?_, fun r j => ?_⟩
  · show (V m c main_v3 : S8192x512.Idx → EReal) (((cfg0.win 0).blk t).view.emb (ix2 r h)) = _
    rw [← V_queries_r m c (rowOf t r) h]
    refine congrArg _ (funext fun a => Fin.ext ?_)
    match a with
    | ⟨0, _⟩ => show win0_0.index t (0 : Fin 2) * 128 + 1 * r.val = 128 * t.val + r.val; omega
    | ⟨1, _⟩ => show win0_0.index t (1 : Fin 2) * 512 + 1 * h.val = h.val; omega
  · show (V m c main_v7 : S8192x512.Idx → EReal) (((cfg0.win 1).blk t).view.emb (ix2 r h)) = _
    rw [← V_queries_f m c (rowOf t r) h]
    refine congrArg _ (funext fun a => Fin.ext ?_)
    match a with
    | ⟨0, _⟩ => show win0_1.index t (0 : Fin 2) * 128 + 1 * r.val = 128 * t.val + r.val; omega
    | ⟨1, _⟩ => show win0_1.index t (1 : Fin 2) * 512 + 1 * h.val = h.val; omega
  · show (V m c main_v10 : S512x8192.Idx → EReal) (((cfg0.win 2).blk t).view.emb (ix2 h j)) = _
    rw [← V_keys_r m c h j]
    refine congrArg _ (funext fun a => Fin.ext ?_)
    match a with
    | ⟨0, _⟩ => show win0_2.index t (0 : Fin 2) * 512 + 1 * h.val = h.val; omega
    | ⟨1, _⟩ => show win0_2.index t (1 : Fin 2) * 8192 + 1 * j.val = j.val; omega
  · show (V m c main_v13 : S512x8192.Idx → EReal) (((cfg0.win 3).blk t).view.emb (ix2 h j)) = _
    rw [← V_keys_f m c h j]
    refine congrArg _ (funext fun a => Fin.ext ?_)
    match a with
    | ⟨0, _⟩ => show win0_3.index t (0 : Fin 2) * 512 + 1 * h.val = h.val; omega
    | ⟨1, _⟩ => show win0_3.index t (1 : Fin 2) * 8192 + 1 * j.val = j.val; omega
  · show (V m c main_v18 : S8192x512.Idx → EReal) (((cfg0.win 4).blk t).view.emb (ix2 j d)) = _
    rw [← V_values m c j d]
    refine congrArg _ (funext fun a => Fin.ext ?_)
    match a with
    | ⟨0, _⟩ => show win0_4.index t (0 : Fin 2) * 8192 + 1 * j.val = j.val; omega
    | ⟨1, _⟩ => show win0_4.index t (1 : Fin 2) * 512 + 1 * d.val = d.val; omega
  · show (V m c main_v19 : S8192x8192.Idx → BitVec 32) (((cfg0.win 5).blk t).view.emb (ix2 r j)) = _
    rw [← V_mask_r m c (rowOf t r) j]
    refine congrArg _ (funext fun a => Fin.ext ?_)
    match a with
    | ⟨0, _⟩ => show win0_5.index t (0 : Fin 2) * 128 + 1 * r.val = 128 * t.val + r.val; omega
    | ⟨1, _⟩ => show win0_5.index t (1 : Fin 2) * 8192 + 1 * j.val = j.val; omega
  · show (V m c main_v20 : S8192x8192.Idx → BitVec 32) (((cfg0.win 6).blk t).view.emb (ix2 r j)) = _
    rw [← V_mask_f m c (rowOf t r) j]
    refine congrArg _ (funext fun a => Fin.ext ?_)
    match a with
    | ⟨0, _⟩ => show win0_6.index t (0 : Fin 2) * 128 + 1 * r.val = 128 * t.val + r.val; omega
    | ⟨1, _⟩ => show win0_6.index t (1 : Fin 2) * 8192 + 1 * j.val = j.val; omega

/-- What point `t` writes back to the attention matrix is block `t` of `attnArr`. -/
theorem flushed7_eq (c : Dev nD) (t : Fin cfg0.N) :
    (dats m 0 c).flushed 7 t = ((cfg0.win 7).blk t).view.read (Elt Ideal) (attnArr m c) := by
  show (cfg0.win 7).cut (grid0.coords t) ((dats m 0 c).after 7 t) = _
  rw [after0_7]
  unfold outsAt0
  dsimp only
  obtain ⟨-, -, -, -, -, -, -, -, -, -, -, -, -, -, e70, e71, -⟩ := idx_facts t
  funext y
  obtain ⟨r, j, rfl⟩ : ∃ (r : Fin 128) (j : Fin 8192), y = ix2 r j := ⟨y 0, y 1, eq_ix2 y⟩
  show out0_A_7 (F := Ideal) c (grid0.coords t) _ _ _ _ _ _ _ _ _ _ _ _ _ _ _ _ _ _ _ _ _ _ _ _ _ (ix2 r j)
    = attnArr m c (((cfg0.win 7).blk t).view.emb (ix2 r j))
  rw [attnBlock_apply _ _ _ _ _ _ _ _ _ _ _ _ _ _ _ _ _ c (grid0.coords t) _ _ _ _ _ _ _ _ _ _ _ _ _ _ _ _ _ _ (staged m c t) r j]
  unfold attnArr
  have e0 : (⟨((((cfg0.win 7).blk t).view.emb (ix2 r j)) 0).val, ((((cfg0.win 7).blk t).view.emb (ix2 r j)) 0).isLt⟩ : Fin 8192) = rowOf t r :=
    Fin.ext (by show win0_7.index t (0 : Fin 2) * 128 + 1 * r.val = 128 * t.val + r.val; omega)
  have e1 : (⟨((((cfg0.win 7).blk t).view.emb (ix2 r j)) 1).val, ((((cfg0.win 7).blk t).view.emb (ix2 r j)) 1).isLt⟩ : Fin 8192) = j :=
    Fin.ext (by show win0_7.index t (1 : Fin 2) * 8192 + 1 * j.val = j.val; omega)
  rw [e0, e1]

/-- What point `t` writes back to the context is block `t` of `cntxArr`. -/
theorem flushed8_eq (c : Dev nD) (t : Fin cfg0.N) :
    (dats m 0 c).flushed 8 t = ((cfg0.win 8).blk t).view.read (Elt Ideal) (cntxArr m c) := by
  show (cfg0.win 8).cut (grid0.coords t) ((dats m 0 c).after 8 t) = _
  rw [after0_8]
  unfold outsAt0
  dsimp only
  obtain ⟨-, -, -, -, -, -, -, -, -, -, -, -, -, -, -, -, e80, e81⟩ := idx_facts t
  funext y
  obtain ⟨r, d, rfl⟩ : ∃ (r : Fin 128) (d : Fin 512), y = ix2 r d := ⟨y 0, y 1, eq_ix2 y⟩
  show out0_A_8 (F := Ideal) c (grid0.coords t) _ _ _ _ _ _ _ _ _ _ _ _ _ _ _ _ _ _ _ _ _ _ _ _ _ (ix2 r d)
    = cntxArr m c (((cfg0.win 8).blk t).view.emb (ix2 r d))
  rw [cntxBlock_apply _ _ _ _ _ _ _ _ _ _ _ _ _ _ _ _ _ c (grid0.coords t) _ _ _ _ _ _ _ _ _ _ _ _ _ _ _ _ _ _ (staged m c t) r d]
  unfold cntxArr
  have e0 : (⟨((((cfg0.win 8).blk t).view.emb (ix2 r d)) 0).val, ((((cfg0.win 8).blk t).view.emb (ix2 r d)) 0).isLt⟩ : Fin 8192) = rowOf t r :=
    Fin.ext (by show win0_8.index t (0 : Fin 2) * 128 + 1 * r.val = 128 * t.val + r.val; omega)
  have e1 : (⟨((((cfg0.win 8).blk t).view.emb (ix2 r d)) 1).val, ((((cfg0.win 8).blk t).view.emb (ix2 r d)) 1).isLt⟩ : Fin 512) = d :=
    Fin.ext (by show win0_8.index t (1 : Fin 2) * 512 + 1 * d.val = d.val; omega)
  rw [e0, e1]

/-- An index of the attention matrix is in point `t`'s block iff each coordinate is in the block's range on its axis. -/
theorem mem_blk7 (t : Fin cfg0.N) (i : S8192x8192.Idx) :
    i ∈ ((cfg0.win 7).blk t).view.set ↔ ∀ a : Fin 2, win0_7.index t a * S128x8192.size a ≤ (i a).val ∧ (i a).val < win0_7.index t a * S128x8192.size a + S128x8192.size a := by
  show i ∈ ((View.whole main_v21_0).slice (win0_7.rect t)).set ↔ _
  rw [View.set_slice_whole, Rect.mem_set_unit]
  exact Iff.rfl

theorem mem_blk8 (t : Fin cfg0.N) (i : S8192x512.Idx) :
    i ∈ ((cfg0.win 8).blk t).view.set ↔ ∀ a : Fin 2, win0_8.index t a * S128x512.size a ≤ (i a).val ∧ (i a).val < win0_8.index t a * S128x512.size a + S128x512.size a := by
  show i ∈ ((View.whole main_v21_1).slice (win0_8.rect t)).set ↔ _
  rw [View.set_slice_whole, Rect.mem_set_unit]
  exact Iff.rfl

/-- Row `n` of either result lies in the block of point `n / 128`. -/
theorem cover7 (i : S8192x8192.Idx) : ∃ t : Fin cfg0.N, (cfg0.win 7).flush t = true ∧ i ∈ ((cfg0.win 7).blk t).view.set := by
  have hi0 : (i 0).val < 8192 := (i 0).isLt
  have hi1 : (i 1).val < 8192 := (i 1).isLt
  have hN : cfg0.N = 64 := N_0
  refine ⟨⟨(i 0).val / 128, by omega⟩, flush0_7 _, ?_⟩
  obtain ⟨-, -, -, -, -, -, -, -, -, -, -, -, -, -, e70, e71, -⟩ := idx_facts ⟨(i 0).val / 128, by omega⟩
  rw [mem_blk7]
  intro a
  match a with
  | ⟨0, _⟩ => show win0_7.index _ (0 : Fin 2) * 128 ≤ (i 0).val ∧ (i 0).val < win0_7.index _ (0 : Fin 2) * 128 + 128; rw [e70]; show (i 0).val / 128 * 128 ≤ _ ∧ _ < (i 0).val / 128 * 128 + 128; omega
  | ⟨1, _⟩ => show win0_7.index _ (1 : Fin 2) * 8192 ≤ (i 1).val ∧ (i 1).val < win0_7.index _ (1 : Fin 2) * 8192 + 8192; rw [e71]; omega

theorem cover8 (i : S8192x512.Idx) : ∃ t : Fin cfg0.N, (cfg0.win 8).flush t = true ∧ i ∈ ((cfg0.win 8).blk t).view.set := by
  have hi0 : (i 0).val < 8192 := (i 0).isLt
  have hi1 : (i 1).val < 512 := (i 1).isLt
  have hN : cfg0.N = 64 := N_0
  refine ⟨⟨(i 0).val / 128, by omega⟩, flush0_8 _, ?_⟩
  obtain ⟨-, -, -, -, -, -, -, -, -, -, -, -, -, -, -, -, e80, e81⟩ := idx_facts ⟨(i 0).val / 128, by omega⟩
  rw [mem_blk8]
  intro a
  match a with
  | ⟨0, _⟩ => show win0_8.index _ (0 : Fin 2) * 128 ≤ (i 0).val ∧ (i 0).val < win0_8.index _ (0 : Fin 2) * 128 + 128; rw [e80]; show (i 0).val / 128 * 128 ≤ _ ∧ _ < (i 0).val / 128 * 128 + 128; omega
  | ⟨1, _⟩ => show win0_8.index _ (1 : Fin 2) * 512 ≤ (i 1).val ∧ (i 1).val < win0_8.index _ (1 : Fin 2) * 512 + 512; rw [e81]; omega

/-- The two result arrays after the run. -/
theorem final7 (c : Dev nD) : (dats m 0 c).arrAt 7 cfg0.N = attnArr m c :=
  (dats m 0 c).arrAt_eq_of_cover 7 (attnArr m c) (fun t _ => flushed7_eq m c t) cover7
theorem final8 (c : Dev nD) : (dats m 0 c).arrAt 8 cfg0.N = cntxArr m c :=
  (dats m 0 c).arrAt_eq_of_cover 8 (cntxArr m c) (fun t _ => flushed8_eq m c t) cover8

/-- The kernel's program runs, ends with the context and the attention matrix at `cntxArr` and `attnArr` of its argument
    arrays, and leaves the arguments as they were. -/
theorem run : θ_run defs (onTc (τ := τ) (main (F := Ideal))) ⟨m, fun _ => 0, ρ⟩ fun r => ∀ c : Dev nD,
      r.2.mem ((c.tc : Thread nD τ).loc main_v21_1) = cntxArr m c
      ∧ r.2.mem ((c.tc : Thread nD τ).loc main_v21_0) = attnArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 8).trans (final8 m c), ((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.ArraysValue

end
-- ==== Proof.LibSumAssoc.lean ====
/-
  A general fact about finite double sums of extended reals, used to re-associate a product of three matrices.
  On the extended reals multiplication does not distribute over addition at the infinities, so the interchange
  below is stated for REAL entries (each entry the image of a real number): then both sides are the image of
  the same real double sum.
-/
import Idealize.ShloMosaic.PureOps.Ideal

namespace ERealSums

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real entry. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

/-- A product of real entries is a real entry. -/
theorem mul_real {a b : EReal} (ha : ∃ r : ℝ, a = r) (hb : ∃ r : ℝ, b = r) : ∃ r : ℝ, a * b = r := by
  obtain ⟨r, rfl⟩ := ha; obtain ⟨s, rfl⟩ := hb
  exact ⟨r * s, (EReal.coe_mul r s).symm⟩

/-- RE-ASSOCIATING A TRIPLE PRODUCT: for a row `a`, a matrix `x` and a column `w` of real entries,
    `∑ₖ (∑ⱼ aⱼ·xⱼₖ)·wₖ = ∑ⱼ aⱼ·(∑ₖ xⱼₖ·wₖ)` — the (row · matrix) · column product is the row · (matrix · column)
    product. -/
theorem sum_mul_sum_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha using ha
  choose x' hx using hx
  choose w' hw using hw
  simp only [ha, hx, hw, ← EReal.coe_mul, ← coe_sum]
  refine congrArg _ ?_
  simp only [Finset.sum_mul, Finset.mul_sum]
  rw [Finset.sum_comm]
  exact Finset.sum_congr rfl fun j _ => Finset.sum_congr rfl fun k _ => by ring

end ERealSums
-- ==== Proof.LibBlockedSum.lean ====
/-
  A sum over a long axis, taken block by block.

  A sum over the first a·b naturals can be taken in a consecutive blocks of b terms: the term at position k sits in
  block k / b at place k % b, that is at b·s + d with s the block and d the place. Only commutativity and
  associativity of the addition are used, so the statement holds in any commutative monoid — in particular on the
  extended reals, where no finiteness is needed.
-/
import Mathlib.Algebra.BigOperators.Fin
import Mathlib.Logic.Equiv.Fin.Basic

open scoped BigOperators

namespace Cert.LibBlockedSum

/-- The sum over s < a of the sums over d < b of f (b·s + d) is the sum of f over the first a·b naturals. -/
theorem sum_range_blocks {β : Type*} [AddCommMonoid β] (a b : ℕ) (f : ℕ → β) :
    ∑ s ∈ Finset.range a, ∑ d : Fin b, f (b * s + d.val) = ∑ k : Fin (a * b), f k.val := by
  rw [← Equiv.sum_comp finProdFinEquiv (fun k : Fin (a * b) => f k.val), Fintype.sum_prod_type, Finset.sum_range]
  refine Finset.sum_congr rfl fun s _ => Finset.sum_congr rfl fun d _ => ?_
  refine congrArg f ?_
  show b * s.val + d.val = d.val + b * s.val
  exact Nat.add_comm _ _

end Cert.LibBlockedSum
-- ==== Proof.AttnLaw.lean ====
/-
  The two arrangements of the two-branch masked attention agree when every argument entry is a real number.

  With real inputs every projected row is real, so the scale may be taken out of the inner product and the two
  arrangements have the same scores, hence the same weights. A weight is the exponential of a real plus one half of
  the exponential of a real: a positive real. The row sum gathered in eight runs of 1024 keys is the plain sum over
  the 8192 keys, a positive real S. Dividing every weight by 3/2 before normalising by a quotient, or not dividing
  and multiplying by the reciprocal of S, both give w / S; and for the context the factor 1 / S may multiply the
  finished weighted sum of the value rows, which are real too. All identities are carried to the reals, where they
  are identities of a field, and brought back along the embedding of the reals in the extended reals.
-/
import Mathlib.Tactic
import Idealize.ShloMosaic.PureOps.Ideal
import proofs.«171019_j49134425866850_2_alg».proof.Proof.AttnSpec
import proofs.«171019_j49134425866850_2_alg».proof.Proof.LibAllReal
import proofs.«171019_j49134425866850_2_alg».proof.Proof.LibSumAssoc
import proofs.«171019_j49134425866850_2_alg».proof.Proof.LibBlockedSum

noncomputable section

namespace Cert.AttnLaw

open Idealize.ShloMosaic Idealize.ShloMosaic.ValueIdx
open Cert.AttnSpec Cert.Proof.AllReal
open scoped BigOperators

/-! ## The constant words -/

/-- The word `0x00000000` denotes zero. -/
theorem zeroW_eq : zeroW = (0 : EReal) := by
  simp [Ideal.ofBits, Ideal.ieee]

/-- The word `0x3F800000` denotes one: exponent field 127, significand 0. -/
theorem oneW_eq : oneW = (1 : EReal) := by
  simp [Ideal.ofBits, Ideal.ieee, -EReal.coe_mul]; norm_num

/-- The word `0x3F000000` denotes one half: exponent field 126, significand 0. -/
theorem halfW_eq : halfW = ((1 / 2 : ℝ) : EReal) := by
  simp [Ideal.ofBits, Ideal.ieee, -EReal.coe_mul] <;> norm_num

/-- The word `0x3FC00000` denotes three halves: exponent field 127, significand 2²², so (2²³ + 2²²) · 2⁻²³. -/
theorem threeHalvesW_eq : threeHalvesW = ((3 / 2 : ℝ) : EReal) := by
  simp [Ideal.ofBits, Ideal.ieee, -EReal.coe_mul] <;> norm_num

/-- The scale is a real number: its exponent field is 122. -/
theorem isReal_scaleW : IsReal scaleW := isReal_ofBits_f32 _ (by decide)

/-- The fill is a real number: its exponent field is 156. -/
theorem isReal_fillW : IsReal fillW := isReal_ofBits_f32 _ (by decide)

/-! ## Identities of real families, stated on the extended reals -/

/-- For real entries `a`, `b` and a real factor `s`: scaling every `a` by `s` scales the inner product,
    `∑ (a_h · s) · b_h = (∑ a_h · b_h) · s`. -/
theorem scaled_dot {ι : Type*} [Fintype ι] (a b : ι → EReal) (s : EReal)
    (ha : ∀ h, IsReal (a h)) (hb : ∀ h, IsReal (b h)) (hs : IsReal s) :
    ∑ h, (a h * s) * b h = (∑ h, a h * b h) * s := by
  choose a' ha using ha
  choose b' hb using hb
  obtain ⟨s', rfl⟩ := hs
  simp only [ha, hb, ← EReal.coe_mul, ← ERealSums.coe_sum]
  rw [EReal.coe_eq_coe_iff, Finset.sum_mul]
  exact Finset.sum_congr rfl fun f _ => by ring

/-- NORMALISING A ROW of real weights `w` with positive sum: the weight times the reciprocal of the sum is the weight
    over 3/2, over the sum of the weights over 3/2. -/
theorem normalise_eq {ι : Type*} [Fintype ι] (w : ι → ℝ) (hS : 0 < ∑ i, w i) (m : ι) :
    (w m : EReal) * Ideal.div 1 (∑ i, (w i : EReal))
      = Ideal.div (Ideal.div (w m : EReal) ((3 / 2 : ℝ) : EReal))
          (0 + ∑ i, Ideal.div (w i : EReal) ((3 / 2 : ℝ) : EReal)) := by
  have h32 : (3 / 2 : ℝ) ≠ 0 := by norm_num
  have hS0 : (∑ i, w i) ≠ 0 := ne_of_gt hS
  have hT : (∑ i, w i * (1 / (3 / 2 : ℝ))) ≠ 0 := by
    rw [← Finset.sum_mul]; exact mul_ne_zero hS0 (by norm_num)
  simp only [Ideal.div_coe h32, ← EReal.coe_mul, ← ERealSums.coe_sum, zero_add]
  rw [Ideal.div_coe hS0, Ideal.div_coe hT, ← EReal.coe_one]
  simp only [← EReal.coe_mul]
  rw [EReal.coe_eq_coe_iff, ← Finset.sum_mul]
  field_simp

/-- THE CONTEXT of real weights `w` with positive sum against real values `v`: the weighted sum of the values times
    the reciprocal of the sum of the weights is the sum of the normalised weights times the values. -/
theorem context_eq {ι : Type*} [Fintype ι] (w v : ι → ℝ) (hS : 0 < ∑ i, w i) :
    (0 + ∑ i, (w i : EReal) * (v i : EReal)) * Ideal.div 1 (∑ i, (w i : EReal))
      = ∑ m, Ideal.div (Ideal.div (w m : EReal) ((3 / 2 : ℝ) : EReal))
          (0 + ∑ i, Ideal.div (w i : EReal) ((3 / 2 : ℝ) : EReal)) * (v m : EReal) := by
  have hS0 : (∑ i, w i) ≠ 0 := ne_of_gt hS
  simp only [← normalise_eq w hS]
  simp only [← EReal.coe_mul, ← ERealSums.coe_sum, zero_add]
  rw [Ideal.div_coe hS0, ← EReal.coe_one]
  simp only [← EReal.coe_mul, ← ERealSums.coe_sum]
  rw [EReal.coe_eq_coe_iff, Finset.sum_mul]
  exact Finset.sum_congr rfl fun i _ => by ring

/-! ## The projections, scores and weights -/

/-- A projection of real rows by a real matrix is real. -/
theorem isReal_proj (x : SRows.Idx → EReal) (W : SWeights.Idx → EReal) (hx : AllReal x) (hW : AllReal W)
    (n : Fin 8192) (h : Fin 512) : IsReal (proj x W n h) := by
  unfold proj
  exact isReal_sum _ _ fun d _ => (hx _).mul (hW _)

/-- A value row is real. -/
theorem isReal_value (x : SRows.Idx → EReal) (Wv : SWeights.Idx → EReal) (bv : SBias.Idx → EReal)
    (hx : AllReal x) (hv : AllReal Wv) (hb : AllReal bv) (m : Fin 8192) (d : Fin 512) :
    IsReal (value x Wv bv m d) := by
  unfold value
  exact (isReal_proj x Wv hx hv m d).add (hb _)

/-- A score is real: the fill, or a real inner product times the scale. -/
theorem isReal_score (mask : SPairs.Idx → BitVec 1) (x : SRows.Idx → EReal) (Wq Wk : SWeights.Idx → EReal)
    (hx : AllReal x) (hq : AllReal Wq) (hk : AllReal Wk) (n m : Fin 8192) :
    IsReal (score mask x Wq Wk n m) := by
  unfold score Scalar.select
  exact IsReal.ite isReal_fillW
    ((isReal_sum _ _ fun h _ => (isReal_proj x Wq hx hq n h).mul (isReal_proj x Wk hx hk m h)).mul isReal_scaleW)

/-- Scaling the query row before the inner product, or the inner product after it, gives the same score. -/
theorem kscore_eq_score (mask : SPairs.Idx → BitVec 1) (x : SRows.Idx → EReal) (Wq Wk : SWeights.Idx → EReal)
    (hx : AllReal x) (hq : AllReal Wq) (hk : AllReal Wk) (n m : Fin 8192) :
    kscore mask x Wq Wk n m = score mask x Wq Wk n m := by
  unfold kscore score
  rw [scaled_dot (proj x Wq n) (proj x Wk m) scaleW (isReal_proj x Wq hx hq n) (isReal_proj x Wk hx hk m)
    isReal_scaleW]

/-- The two arrangements have the same weights. -/
theorem kweight_eq_weight (x : SRows.Idx → EReal) (mr mf : SPairs.Idx → BitVec 1)
    (Wqr Wkr Wqf Wkf : SWeights.Idx → EReal)
    (hx : AllReal x) (hqr : AllReal Wqr) (hkr : AllReal Wkr) (hqf : AllReal Wqf) (hkf : AllReal Wkf)
    (n m : Fin 8192) :
    kweight x mr mf Wqr Wkr Wqf Wkf n m = weight x mr mf Wqr Wkr Wqf Wkf n m := by
  unfold kweight weight
  rw [kscore_eq_score mr x Wqr Wkr hx hqr hkr n m, kscore_eq_score mf x Wqf Wkf hx hqf hkf n m]

/-- A weight is a positive real: an exponential of a real plus one half of an exponential of a real. -/
theorem weight_pos (x : SRows.Idx → EReal) (mr mf : SPairs.Idx → BitVec 1)
    (Wqr Wkr Wqf Wkf : SWeights.Idx → EReal)
    (hx : AllReal x) (hqr : AllReal Wqr) (hkr : AllReal Wkr) (hqf : AllReal Wqf) (hkf : AllReal Wkf)
    (n m : Fin 8192) :
    ∃ r : ℝ, 0 < r ∧ weight x mr mf Wqr Wkr Wqf Wkf n m = (r : EReal) := by
  obtain ⟨a, ha⟩ := isReal_score mr x Wqr Wkr hx hqr hkr n m
  obtain ⟨b, hb⟩ := isReal_score mf x Wqf Wkf hx hqf hkf n m
  refine ⟨Real.exp a + 1 / 2 * Real.exp b, by positivity, ?_⟩
  unfold weight
  rw [ha, hb, Ideal.exp_coe, Ideal.exp_coe, halfW_eq, ← EReal.coe_mul, ← EReal.coe_add]

/-! ## The sums gathered in eight runs of 1024 keys -/

/-- The row sum over all eight runs is the sum over the 8192 keys. -/
theorem kden_eight (x : SRows.Idx → EReal) (mr mf : SPairs.Idx → BitVec 1)
    (Wqr Wkr Wqf Wkf : SWeights.Idx → EReal) (n : Fin 8192) :
    kden x mr mf Wqr Wkr Wqf Wkf n 8 = ∑ m : Fin 8192, kweight x mr mf Wqr Wkr Wqf Wkf n m := by
  unfold kden
  rw [zeroW_eq, zero_add, Cert.LibBlockedSum.sum_range_blocks 8 1024 (kweightN x mr mf Wqr Wkr Wqf Wkf n)]
  show ∑ k : Fin 8192, kweightN x mr mf Wqr Wkr Wqf Wkf n k.val = _
  refine Finset.sum_congr rfl fun k _ => ?_
  unfold kweightN
  rw [dif_pos k.isLt]

/-- The weighted sum of the value rows over all eight runs is the sum over the 8192 keys. -/
theorem kacc_eight (x : SRows.Idx → EReal) (mr mf : SPairs.Idx → BitVec 1)
    (Wqr Wkr Wqf Wkf Wv : SWeights.Idx → EReal) (bv : SBias.Idx → EReal) (n : Fin 8192) (d : Fin 512) :
    kacc x mr mf Wqr Wkr Wqf Wkf Wv bv n d 8
      = 0 + ∑ m : Fin 8192, kweight x mr mf Wqr Wkr Wqf Wkf n m * value x Wv bv m d := by
  unfold kacc
  rw [zeroW_eq, Cert.LibBlockedSum.sum_range_blocks 8 1024 (ktermN x mr mf Wqr Wkr Wqf Wkf Wv bv n d)]
  show 0 + ∑ k : Fin 8192, ktermN x mr mf Wqr Wkr Wqf Wkf Wv bv n d k.val = _
  refine congrArg _ (Finset.sum_congr rfl fun k _ => ?_)
  unfold ktermN
  rw [dif_pos k.isLt]

/-! ## The two arrangements agree -/

/-- The attention matrices of the two arrangements agree on real arguments. -/
theorem kattn_eq_attn (x : SRows.Idx → EReal) (mr mf : SPairs.Idx → BitVec 1)
    (Wqr Wkr Wqf Wkf : SWeights.Idx → EReal)
    (hx : AllReal x) (hqr : AllReal Wqr) (hkr : AllReal Wkr) (hqf : AllReal Wqf) (hkf : AllReal Wkf)
    (n m : Fin 8192) :
    kattn x mr mf Wqr Wkr Wqf Wkf n m = attn x mr mf Wqr Wkr Wqf Wkf n m := by
  have hw : ∀ m', ∃ r : ℝ, 0 < r ∧ weight x mr mf Wqr Wkr Wqf Wkf n m' = (r : EReal) :=
    fun m' => weight_pos x mr mf Wqr Wkr Wqf Wkf hx hqr hkr hqf hkf n m'
  choose w hwpos hweq using hw
  have hS : 0 < ∑ i, w i := Finset.sum_pos (fun i _ => hwpos i) ⟨n, Finset.mem_univ _⟩
  unfold kattn attn
  rw [kden_eight, oneW_eq, zeroW_eq, threeHalvesW_eq]
  simp only [kweight_eq_weight x mr mf Wqr Wkr Wqf Wkf hx hqr hkr hqf hkf, hweq]
  exact normalise_eq w hS m

/-- The contexts of the two arrangements agree on real arguments. -/
theorem kcntx_eq_cntx (x : SRows.Idx → EReal) (mr mf : SPairs.Idx → BitVec 1)
    (Wqr Wkr Wqf Wkf Wv : SWeights.Idx → EReal) (bv : SBias.Idx → EReal)
    (hx : AllReal x) (hqr : AllReal Wqr) (hkr : AllReal Wkr) (hqf : AllReal Wqf) (hkf : AllReal Wkf)
    (hv : AllReal Wv) (hb : AllReal bv) (n : Fin 8192) (d : Fin 512) :
    kcntx x mr mf Wqr Wkr Wqf Wkf Wv bv n d = cntx x mr mf Wqr Wkr Wqf Wkf Wv bv n d := by
  have hw : ∀ m', ∃ r : ℝ, 0 < r ∧ weight x mr mf Wqr Wkr Wqf Wkf n m' = (r : EReal) :=
    fun m' => weight_pos x mr mf Wqr Wkr Wqf Wkf hx hqr hkr hqf hkf n m'
  choose w hwpos hweq using hw
  have hval : ∀ m', ∃ r : ℝ, value x Wv bv m' d = (r : EReal) :=
    fun m' => isReal_value x Wv bv hx hv hb m' d
  choose v hveq using hval
  have hS : 0 < ∑ i, w i := Finset.sum_pos (fun i _ => hwpos i) ⟨n, Finset.mem_univ _⟩
  unfold kcntx cntx attn
  rw [kacc_eight, kden_eight, oneW_eq, zeroW_eq, threeHalvesW_eq]
  simp only [kweight_eq_weight x mr mf Wqr Wkr Wqf Wkf hx hqr hkr hqf hkf, hweq, hveq]
  exact context_eq w v hS

end Cert.AttnLaw

end
-- ==== Proof.RefIsSpec.lean ====
/-
  The reference program's stages, read at an index, are the first arrangement of the two-branch masked attention:
  each projection stage is a projection of the input rows, the masked scaled inner products are the scores, the
  sum of the two exponentials is the weight, the row-normalised quotient is the attention and the last contraction
  is the context.
-/
import proofs.«171019_j49134425866850_2_alg».proof.Proof.Gen.ReferenceIdeal.Read
import proofs.«171019_j49134425866850_2_alg».proof.Proof.AttnSpec

noncomputable section

namespace Cert.RefIsSpec

open Cert.ReferenceIdeal Cert.ReferenceIdeal.Read Cert.AttnSpec Idealize.ShloMosaic Idealize.ShloMosaic.ValueIdx
open scoped BigOperators

/-! ## The operand indices of the contractions and of the row sum, by coordinates

Reading entry `(n, h)` of a product of a row array by a square matrix takes the left operand at `(n, k)` and the right
at `(k, h)`; reading entry `(n, m)` of the row-by-row inner products takes both operands' rows, at `(n, k)` and
`(m, k)`. -/

theorem lidx_v0 (n : Fin 8192) (h k : Fin 512) : lidx_main_v0 (ix2 n h) k = ix2 n k :=
  funext fun a => by match a with | ⟨0, _⟩ => rfl | ⟨1, _⟩ => rfl
theorem ridx_v0 (n : Fin 8192) (h k : Fin 512) : ridx_main_v0 (ix2 n h) k = ix2 k h :=
  funext fun a => by match a with | ⟨0, _⟩ => rfl | ⟨1, _⟩ => rfl
theorem lidx_v1 (n : Fin 8192) (h k : Fin 512) : lidx_main_v1 (ix2 n h) k = ix2 n k :=
  funext fun a => by match a with | ⟨0, _⟩ => rfl | ⟨1, _⟩ => rfl
theorem ridx_v1 (n : Fin 8192) (h k : Fin 512) : ridx_main_v1 (ix2 n h) k = ix2 k h :=
  funext fun a => by match a with | ⟨0, _⟩ => rfl | ⟨1, _⟩ => rfl
theorem lidx_v6 (n : Fin 8192) (h k : Fin 512) : lidx_main_v6 (ix2 n h) k = ix2 n k :=
  funext fun a => by match a with | ⟨0, _⟩ => rfl | ⟨1, _⟩ => rfl
theorem ridx_v6 (n : Fin 8192) (h k : Fin 512) : ridx_main_v6 (ix2 n h) k = ix2 k h :=
  funext fun a => by match a with | ⟨0, _⟩ => rfl | ⟨1, _⟩ => rfl
theorem lidx_v7 (n : Fin 8192) (h k : Fin 512) : lidx_main_v7 (ix2 n h) k = ix2 n k :=
  funext fun a => by match a with | ⟨0, _⟩ => rfl | ⟨1, _⟩ => rfl
theorem ridx_v7 (n : Fin 8192) (h k : Fin 512) : ridx_main_v7 (ix2 n h) k = ix2 k h :=
  funext fun a => by match a with | ⟨0, _⟩ => rfl | ⟨1, _⟩ => rfl
theorem lidx_v23 (n : Fin 8192) (h k : Fin 512) : lidx_main_v23 (ix2 n h) k = ix2 n k :=
  funext fun a => by match a with | ⟨0, _⟩ => rfl | ⟨1, _⟩ => rfl
theorem ridx_v23 (n : Fin 8192) (h k : Fin 512) : ridx_main_v23 (ix2 n h) k = ix2 k h :=
  funext fun a => by match a with | ⟨0, _⟩ => rfl | ⟨1, _⟩ => rfl
theorem lidx_v2 (n m : Fin 8192) (k : Fin 512) : lidx_main_v2 (ix2 n m) k = ix2 n k :=
  funext fun a => by match a with | ⟨0, _⟩ => rfl | ⟨1, _⟩ => rfl
theorem ridx_v2 (n m : Fin 8192) (k : Fin 512) : ridx_main_v2 (ix2 n m) k = ix2 m k :=
  funext fun a => by match a with | ⟨0, _⟩ => rfl | ⟨1, _⟩ => rfl
theorem lidx_v8 (n m : Fin 8192) (k : Fin 512) : lidx_main_v8 (ix2 n m) k = ix2 n k :=
  funext fun a => by match a with | ⟨0, _⟩ => rfl | ⟨1, _⟩ => rfl
theorem ridx_v8 (n m : Fin 8192) (k : Fin 512) : ridx_main_v8 (ix2 n m) k = ix2 m k :=
  funext fun a => by match a with | ⟨0, _⟩ => rfl | ⟨1, _⟩ => rfl
theorem idx_v19 (n k : Fin 8192) : idx_main_v19 (ix1 n) k = ix2 n k :=
  funext fun a => by match a with | ⟨0, _⟩ => rfl | ⟨1, _⟩ => rfl
theorem idx_v21_v20 (n m : Fin 8192) : idx_main_v20 (idx_main_v21 (ix2 n m)) = ix1 n :=
  funext fun a => by match a with | ⟨0, _⟩ => rfl
theorem idx_v25_v24 (m : Fin 8192) (d : Fin 512) : idx_main_v24 (idx_main_v25 (ix2 m d)) = ix1 d :=
  funext fun a => by match a with | ⟨0, _⟩ => rfl
theorem lidx_v27 (n k : Fin 8192) (d : Fin 512) : lidx_main_v27 (ix2 n d) k = ix2 n k :=
  funext fun a => by match a with | ⟨0, _⟩ => rfl | ⟨1, _⟩ => rfl
theorem ridx_v27 (n k : Fin 8192) (d : Fin 512) : ridx_main_v27 (ix2 n d) k = ix2 k d :=
  funext fun a => by match a with | ⟨0, _⟩ => rfl | ⟨1, _⟩ => rfl

/-! ## The projections -/

/-- Stage 0 is the projection of the input rows by argument 3. -/
theorem v0_stage (x0 : (⟨S8192x512, .f32⟩ : BufTy).Contents (Elt Ideal)) (x3 : (⟨S512x512, .f32⟩ : BufTy).Contents (Elt Ideal)) (n : Fin 8192) (h : Fin 512) :
    val_main_v0 (F := Ideal) x0 x3 (ix2 n h) = proj x0 x3 n h := by
  rw [val_main_v0_apply]
  unfold proj
  refine Finset.sum_congr rfl fun k _ => ?_
  rw [lidx_v0, ridx_v0]

/-- Stage 1 is the projection of the input rows by argument 4. -/
theorem v1_stage (x0 : (⟨S8192x512, .f32⟩ : BufTy).Contents (Elt Ideal)) (x4 : (⟨S512x512, .f32⟩ : BufTy).Contents (Elt Ideal)) (n : Fin 8192) (h : Fin 512) :
    val_main_v1 (F := Ideal) x0 x4 (ix2 n h) = proj x0 x4 n h := by
  rw [val_main_v1_apply]
  unfold proj
  refine Finset.sum_congr rfl fun k _ => ?_
  rw [lidx_v1, ridx_v1]

/-- Stage 6 is the projection of the input rows by argument 5. -/
theorem v6_stage (x0 : (⟨S8192x512, .f32⟩ : BufTy).Contents (Elt Ideal)) (x5 : (⟨S512x512, .f32⟩ : BufTy).Contents (Elt Ideal)) (n : Fin 8192) (h : Fin 512) :
    val_main_v6 (F := Ideal) x0 x5 (ix2 n h) = proj x0 x5 n h := by
  rw [val_main_v6_apply]
  unfold proj
  refine Finset.sum_congr rfl fun k _ => ?_
  rw [lidx_v6, ridx_v6]

/-- Stage 7 is the projection of the input rows by argument 6. -/
theorem v7_stage (x0 : (⟨S8192x512, .f32⟩ : BufTy).Contents (Elt Ideal)) (x6 : (⟨S512x512, .f32⟩ : BufTy).Contents (Elt Ideal)) (n : Fin 8192) (h : Fin 512) :
    val_main_v7 (F := Ideal) x0 x6 (ix2 n h) = proj x0 x6 n h := by
  rw [val_main_v7_apply]
  unfold proj
  refine Finset.sum_congr rfl fun k _ => ?_
  rw [lidx_v7, ridx_v7]

/-- Stage 23 is the projection of the input rows by argument 7. -/
theorem v23_stage (x0 : (⟨S8192x512, .f32⟩ : BufTy).Contents (Elt Ideal)) (x7 : (⟨S512x512, .f32⟩ : BufTy).Contents (Elt Ideal)) (n : Fin 8192) (h : Fin 512) :
    val_main_v23 (F := Ideal) x0 x7 (ix2 n h) = proj x0 x7 n h := by
  rw [val_main_v23_apply]
  unfold proj
  refine Finset.sum_congr rfl fun k _ => ?_
  rw [lidx_v23, ridx_v23]

/-! ## The scores -/

/-- The first branch's masked, scaled inner products are its scores. -/
theorem v5_stage (x0 : (⟨S8192x512, .f32⟩ : BufTy).Contents (Elt Ideal)) (x1 : (⟨S8192x8192, .i1⟩ : BufTy).Contents (Elt Ideal)) (x3 x4 : (⟨S512x512, .f32⟩ : BufTy).Contents (Elt Ideal)) (n m : Fin 8192) :
    val_main_v5 (F := Ideal) x0 x1 x3 x4 (ix2 n m) = score x1 x0 x3 x4 n m := by
  rw [val_main_v5_apply, val_main_call0_v0_apply, val_main_cst_0_apply, val_main_v4_apply, val_main_v3_apply,
    val_main_cst_apply, val_main_v2_apply]
  simp only [lidx_v2, ridx_v2, v0_stage, v1_stage, Ideal.mulf_def, Ideal.ofBits_def]
  rfl

/-- The second branch's masked, scaled inner products are its scores. -/
theorem v11_stage (x0 : (⟨S8192x512, .f32⟩ : BufTy).Contents (Elt Ideal)) (x2 : (⟨S8192x8192, .i1⟩ : BufTy).Contents (Elt Ideal)) (x5 x6 : (⟨S512x512, .f32⟩ : BufTy).Contents (Elt Ideal)) (n m : Fin 8192) :
    val_main_v11 (F := Ideal) x0 x2 x5 x6 (ix2 n m) = score x2 x0 x5 x6 n m := by
  rw [val_main_v11_apply, val_main_call1_v0_apply, val_main_cst_2_apply, val_main_v10_apply, val_main_v9_apply,
    val_main_cst_1_apply, val_main_v8_apply]
  simp only [lidx_v8, ridx_v8, v6_stage, v7_stage, Ideal.mulf_def, Ideal.ofBits_def]
  rfl

/-! ## The weights and the attention -/

/-- The first exponential plus one half of the second is the weight. -/
theorem v16_stage (x0 : (⟨S8192x512, .f32⟩ : BufTy).Contents (Elt Ideal)) (x1 x2 : (⟨S8192x8192, .i1⟩ : BufTy).Contents (Elt Ideal)) (x3 x4 x5 x6 : (⟨S512x512, .f32⟩ : BufTy).Contents (Elt Ideal)) (n m : Fin 8192) :
    val_main_v16 (F := Ideal) x0 x1 x2 x3 x4 x5 x6 (ix2 n m) = weight x0 x1 x2 x3 x4 x5 x6 n m := by
  rw [val_main_v16_apply, val_main_v12_apply, val_main_v15_apply, val_main_v14_apply, val_main_cst_3_apply,
    val_main_v13_apply, v5_stage, v11_stage]
  simp only [Ideal.addf_def, Ideal.mulf_def, Ideal.ofBits_def, Ideal.hostUnary_exp_def]
  rfl

/-- The weight over three halves. -/
theorem v18_stage (x0 : (⟨S8192x512, .f32⟩ : BufTy).Contents (Elt Ideal)) (x1 x2 : (⟨S8192x8192, .i1⟩ : BufTy).Contents (Elt Ideal)) (x3 x4 x5 x6 : (⟨S512x512, .f32⟩ : BufTy).Contents (Elt Ideal)) (n m : Fin 8192) :
    val_main_v18 (F := Ideal) x0 x1 x2 x3 x4 x5 x6 (ix2 n m)
      = Ideal.div (weight x0 x1 x2 x3 x4 x5 x6 n m) threeHalvesW := by
  rw [val_main_v18_apply, val_main_v17_apply, val_main_cst_4_apply, v16_stage]
  simp only [Ideal.hostDivf_def, Ideal.ofBits_def]

/-- The row sums of the weights over three halves, from the zero word. -/
theorem v19_stage (x0 : (⟨S8192x512, .f32⟩ : BufTy).Contents (Elt Ideal)) (x1 x2 : (⟨S8192x8192, .i1⟩ : BufTy).Contents (Elt Ideal)) (x3 x4 x5 x6 : (⟨S512x512, .f32⟩ : BufTy).Contents (Elt Ideal)) (n : Fin 8192) :
    val_main_v19 (F := Ideal) x0 x1 x2 x3 x4 x5 x6 (ix1 n)
      = zeroW + ∑ m' : Fin 8192, Ideal.div (weight x0 x1 x2 x3 x4 x5 x6 n m') threeHalvesW := by
  rw [val_main_v19_apply, val_main_cst_5_apply]
  simp only [idx_v19, v18_stage, Ideal.ofBits_def]

/-- The quotient of the weight over three halves by its row's sum is the attention. -/
theorem attn_stage (x0 : (⟨S8192x512, .f32⟩ : BufTy).Contents (Elt Ideal)) (x1 x2 : (⟨S8192x8192, .i1⟩ : BufTy).Contents (Elt Ideal)) (x3 x4 x5 x6 : (⟨S512x512, .f32⟩ : BufTy).Contents (Elt Ideal)) (n m : Fin 8192) :
    val_main_v22 (F := Ideal) x0 x1 x2 x3 x4 x5 x6 (ix2 n m) = attn x0 x1 x2 x3 x4 x5 x6 n m := by
  rw [val_main_v22_apply, val_main_v21_apply, val_main_v20_apply, idx_v21_v20, v19_stage, v18_stage]
  simp only [Ideal.hostDivf_def]
  rfl

/-! ## The value rows and the context -/

/-- The projection by the value matrix plus the bias, spread over the rows, is the value row. -/
theorem v26_stage (x0 : (⟨S8192x512, .f32⟩ : BufTy).Contents (Elt Ideal)) (x7 : (⟨S512x512, .f32⟩ : BufTy).Contents (Elt Ideal)) (x8 : (⟨S512, .f32⟩ : BufTy).Contents (Elt Ideal)) (m : Fin 8192) (d : Fin 512) :
    val_main_v26 (F := Ideal) x0 x7 x8 (ix2 m d) = value x0 x7 x8 m d := by
  rw [val_main_v26_apply, val_main_v25_apply, val_main_v24_apply, idx_v25_v24, v23_stage]
  simp only [Ideal.addf_def]
  rfl

/-- The attention matrix applied to the value rows is the context. -/
theorem cntx_stage (x0 : (⟨S8192x512, .f32⟩ : BufTy).Contents (Elt Ideal)) (x1 x2 : (⟨S8192x8192, .i1⟩ : BufTy).Contents (Elt Ideal)) (x3 x4 x5 x6 x7 : (⟨S512x512, .f32⟩ : BufTy).Contents (Elt Ideal)) (x8 : (⟨S512, .f32⟩ : BufTy).Contents (Elt Ideal)) (n : Fin 8192) (d : Fin 512) :
    val_main_v27 (F := Ideal) x0 x1 x2 x3 x4 x5 x6 x7 x8 (ix2 n d) = cntx x0 x1 x2 x3 x4 x5 x6 x7 x8 n d := by
  rw [val_main_v27_apply]
  unfold cntx
  refine Finset.sum_congr rfl fun k _ => ?_
  rw [lidx_v27, ridx_v27, attn_stage, v26_stage]

end Cert.RefIsSpec

end
-- ==== Proof.lean ====
/-
  Two-branch masked attention: the kernel's program against the reference, on the extended reals.

  Both programs project the 8192 input rows to queries, keys and values, score every query against every key in two
  branches (an inner product over 512 features times the scale 1/√512 as an f32, replaced by -10⁹ where the branch's
  mask is set), weight key m for query n by exp(first score) + ½·exp(second score), normalise each row of weights by
  its sum, and apply the normalised weights to the value rows. They arrange it differently. The reference divides
  every weight by 3/2 before normalising, multiplies the finished inner product by the scale, normalises by a
  quotient and then multiplies by the values. The kernel scales the query rows first, never divides by 3/2, gathers
  each row's sum and each row's weighted sum of values in eight runs of 1024 keys, and multiplies both by the
  reciprocal of the row's sum at the end.

  On the extended reals the two agree when every float input is finite: then every projection is a real number, the
  scale moves across the inner product, every weight is a positive real, so a row's sum is a positive real, the common
  factor 2/3 cancels from the quotient, a quotient by the sum is a product with its reciprocal, and the reciprocal
  moves across the weighted sum of the values. With an infinite input these laws fail, which is why the precondition
  is used.

  The parts: AttnSpec (both arrangements as functions of the argument arrays), AttnLaw (they are equal on finite
  inputs), RefIsSpec (the reference's stages are the first arrangement), HostSide (what the kernel's host operations
  hand to the call, and finiteness of the arguments from the precondition), Payloads and LoopValue (what one grid
  point's body leaves in its two output blocks: the second arrangement at the point's rows), ArraysValue (the 64 blocks
  tile the result arrays), and the two frames of the kernel's programs (KernelP, KernelIdealP).
-/
import proofs.«171019_j49134425866850_2_alg».proof.Defs
import proofs.«171019_j49134425866850_2_alg».proof.Proof.Gen.Kernel
import proofs.«171019_j49134425866850_2_alg».proof.Proof.Gen.KernelIdeal
import proofs.«171019_j49134425866850_2_alg».proof.Proof.Gen.ReferenceIdeal
import proofs.«171019_j49134425866850_2_alg».proof.Proof.Gen.Pre_finite_inputs
import proofs.«171019_j49134425866850_2_alg».proof.Proof.Gen.ReferenceIdeal.Run
import proofs.«171019_j49134425866850_2_alg».proof.Proof.Gen.ReferenceIdeal.Read
import proofs.«171019_j49134425866850_2_alg».proof.Proof.KernelP.Frame
import proofs.«171019_j49134425866850_2_alg».proof.Proof.KernelIdealP.Frame
import proofs.«171019_j49134425866850_2_alg».proof.Proof.ArraysValue
import proofs.«171019_j49134425866850_2_alg».proof.Proof.AttnLaw
import proofs.«171019_j49134425866850_2_alg».proof.Proof.RefIsSpec
import proofs.«171019_j49134425866850_2_alg».proof.Proof.HostSide
import Idealize.ShloMosaic.Adequacy
import Idealize.ShloMosaic.Init

noncomputable section

namespace Cert.Proof

open Idealize.ShloMosaic Idealize.ShloMosaic.ValueIdx Idealize.SL.Sem

/-- The word-level kernel program runs and leaves its arguments as they were. -/
theorem frame_kernel : Cert.frame_Kernel := fun m ρ _ => Cert.Kernel.GenP.frame m ρ

/-- So does the kernel program read on the extended reals. -/
theorem frame_kernelIdeal : Cert.frame_KernelIdeal := fun m ρ _ => Cert.KernelIdeal.GenP.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, all of them finite, both programs end with the same context and the same
    attention matrix: the kernel's at the second arrangement of its arguments, the reference's at the first, and the two
    arrangements agree on finite inputs. -/
theorem algebraic : Cert.algebraic_KernelIdeal_ReferenceIdeal := by
  intro m ρ m' ρ' hpre hagree
  refine ⟨fun c => Cert.ArraysValue.cntxArr m c, fun c => Cert.ArraysValue.attnArr m c, Cert.ArraysValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨f0, f3, f4, f5, f6, f7, f8⟩ := Cert.HostSide.finite_args m hpre c
    obtain ⟨a0, a1, a2, a3, a4, a5, a6, a7, a8⟩ := hagree c
    refine (Cert.ReferenceIdeal.Read.val_main_v27_eq _ _ _ _ _ _ _ _ _).trans ?_
    rw [a0, a1, a2, a3, a4, a5, a6, a7, a8]
    funext j
    obtain ⟨n, d, rfl⟩ : ∃ (n : Fin 8192) (d : Fin 512), j = ix2 n d := ⟨j 0, j 1, eq_ix2 j⟩
    rw [Cert.RefIsSpec.cntx_stage]
    exact (Cert.AttnLaw.kcntx_eq_cntx _ _ _ _ _ _ _ _ _ f0 f3 f4 f5 f6 f7 f8 n d).symm
  · obtain ⟨f0, f3, f4, f5, f6, -, -⟩ := Cert.HostSide.finite_args m hpre c
    obtain ⟨a0, a1, a2, a3, a4, a5, a6, -, -⟩ := hagree c
    refine (Cert.ReferenceIdeal.Read.val_main_v22_eq _ _ _ _ _ _ _).trans ?_
    rw [a0, a1, a2, a3, a4, a5, a6]
    funext j
    obtain ⟨n, k, rfl⟩ : ∃ (n k : Fin 8192), j = ix2 n k := ⟨j 0, j 1, eq_ix2 j⟩
    rw [Cert.RefIsSpec.attn_stage]
    exact (Cert.AttnLaw.kattn_eq_attn _ _ _ _ _ _ _ f0 f3 f4 f5 f6 n k).symm

/-- The five claims: the three frames, the idealization (the ideal pass rewrote nothing, so there is nothing to restate) and
    the equality of results on the extended reals. -/
theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
